-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S1x64, .f32⟩
  | .hbm, ⟨82, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run, with the final contents of every buffer named.

  The program is three pipelined regions among stretches of host operations. Its buffer contents are followed
  boundary by boundary from the launch memory: a stretch of host operations applies its operations in order, a region
  replaces the contents of its own arrays by what its write-backs leave and keeps every other buffer. The last
  boundary's contents are what the final memory holds at every buffer that outlives the regions — in particular at
  the result, and at the arguments, which nothing writes.
-/
import proofs.«159396_j23673859735705_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and the final memory holds at every
    buffer that is not scoped to a region the contents of the last boundary. -/
theorem run_buffers : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.Whole

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibRowSoftmax.lean ====
/-
  Row-wise pieces of a dense network on the extended reals, entry by entry, generic in the sizes: a bias
  row added to every row of a matrix, that sum rectified, and the logarithm of the row-wise softmax —
  every entry minus its row's largest entry, minus the logarithm of the sum over the row of the
  exponentials of those differences.

  Each reads entry (p, q) of its result from row p of its matrix operand only, so computed on a block
  of rows it gives the rows of what it gives on the whole array (the block-of-rows laws). The vector
  unit's spelling (identity casts, a one-row broadcast, lane reductions from minus infinity and from zero
  kept as columns and broadcast back) and the host's spelling (two-step bias broadcasts, a maximum with a
  broadcast zero, reductions with a maximum and an add body, the row maximum taken once more against
  minus infinity) of each piece are that one function.
-/
import proofs.«159396_j23673859735705_2_alg».proof.Proof.LibDense
import proofs.«159396_j23673859735705_2_alg».proof.Proof.LibColumn

noncomputable section

open scoped BigOperators

namespace Cert.Gcn

open Cert.Dense Idealize.ShloMosaic Idealize.ShloMosaic.ValueIdx

variable {M M' N : ℕ}

/-- A one-row matrix added to every row of a matrix. -/
def addRow (A : Mat M N) (b : Mat 1 N) : Mat M N := fun i => A i + b (ix2 (0 : Fin 1) (i 1))

/-- A bias row added to every row, then the rectifier. -/
def biasRelu (A : Mat M N) (b : Mat 1 N) : Mat M N := relu (addRow A b)

/-- The word of single-precision minus infinity, read on the extended reals. -/
def negInf : EReal := Ideal.ofBits .f32 0xFF800000#32

/-- The largest entry of row p, folded from minus infinity. -/
def rowMax (Y : Mat M N) (p : Fin M) : EReal :=
  (Finset.univ : Finset (Fin N)).fold max negInf (fun k => Y (ix2 p k))

/-- The logarithm of the row-wise softmax: (y − m) − log Σ exp (y − m), m the row's largest entry. -/
def logSoftmax (Y : Mat M N) : Mat M N := fun i =>
  (Y i - rowMax Y (i 0)) - Ideal.log (∑ k : Fin N, Ideal.exp (Y (ix2 (i 0) k) - rowMax Y (i 0)))

/-- A bias row added to every row, then the logarithm of the row-wise softmax. -/
def biasLogSoftmax (A : Mat M N) (b : Mat 1 N) : Mat M N := logSoftmax (addRow A b)

/-- A vector laid out as the one row of a one-row matrix. -/
def rowOf (b : Row N) : Mat 1 N := fun i => b (ix1 (i 1))

theorem logSoftmax_apply (Y : Mat M N) (p : Fin M) (q : Fin N) :
    logSoftmax Y (ix2 p q)
      = (Y (ix2 p q) - rowMax Y p) - Ideal.log (∑ k : Fin N, Ideal.exp (Y (ix2 p k) - rowMax Y p)) := rfl

/-! ## On a block of rows -/

theorem addRow_rows (A : Mat M' N) (blk : Mat M N) (b : Mat 1 N) (ρ : Fin M → Fin M')
    (h : ∀ p k, blk (ix2 p k) = A (ix2 (ρ p) k)) (p : Fin M) (q : Fin N) :
    addRow blk b (ix2 p q) = addRow A b (ix2 (ρ p) q) := by
  show blk (ix2 p q) + b (ix2 (0 : Fin 1) q) = A (ix2 (ρ p) q) + b (ix2 (0 : Fin 1) q)
  rw [h p q]

theorem biasRelu_rows (A : Mat M' N) (blk : Mat M N) (b : Mat 1 N) (ρ : Fin M → Fin M')
    (h : ∀ p k, blk (ix2 p k) = A (ix2 (ρ p) k)) (p : Fin M) (q : Fin N) :
    biasRelu blk b (ix2 p q) = biasRelu A b (ix2 (ρ p) q) := by
  show max (addRow blk b (ix2 p q)) 0 = max (addRow A b (ix2 (ρ p) q)) 0
  rw [addRow_rows A blk b ρ h p q]

theorem rowMax_rows (Y : Mat M' N) (blk : Mat M N) (ρ : Fin M → Fin M')
    (h : ∀ p k, blk (ix2 p k) = Y (ix2 (ρ p) k)) (p : Fin M) : rowMax blk p = rowMax Y (ρ p) := by
  unfold rowMax
  exact congrArg (fun f => Finset.fold max negInf f (Finset.univ : Finset (Fin N))) (funext fun k => h p k)

theorem logSoftmax_rows (Y : Mat M' N) (blk : Mat M N) (ρ : Fin M → Fin M')
    (h : ∀ p k, blk (ix2 p k) = Y (ix2 (ρ p) k)) (p : Fin M) (q : Fin N) :
    logSoftmax blk (ix2 p q) = logSoftmax Y (ix2 (ρ p) q) := by
  rw [logSoftmax_apply, logSoftmax_apply, rowMax_rows Y blk ρ h p, h p q]
  exact congrArg (fun s => (Y (ix2 (ρ p) q) - rowMax Y (ρ p)) - Ideal.log s)
    (Finset.sum_congr rfl fun k _ => by rw [h p k])

theorem biasLogSoftmax_rows (A : Mat M' N) (blk : Mat M N) (b : Mat 1 N) (ρ : Fin M → Fin M')
    (h : ∀ p k, blk (ix2 p k) = A (ix2 (ρ p) k)) (p : Fin M) (q : Fin N) :
    biasLogSoftmax blk b (ix2 p q) = biasLogSoftmax A b (ix2 (ρ p) q) :=
  logSoftmax_rows (addRow A b) (addRow blk b) ρ (fun p k => addRow_rows A blk b ρ h p k) p q

/-! ## As the vector unit spells them -/

/-- The block plus the bias row broadcast over its rows (the casts to the same shape are the identity). -/
theorem addf_cast_broadcastTo (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    addf (shapeCast ⟨2, ![M, N]⟩ x0 h0) (broadcastTo ⟨2, ![M, N]⟩ (shapeCast ⟨2, ![1, N]⟩ x1 h1) hb) = addRow x0 x1 := by
  rw [shapeCast_self, shapeCast_self]
  funext i
  obtain ⟨p, q, rfl⟩ : ∃ (p : Fin M) (q : Fin N), i = ix2 p q := ⟨i 0, i 1, eq_ix2 i⟩
  show x0 (ix2 p q) + broadcastTo ⟨2, ![M, N]⟩ x1 hb (ix2 p q) = x0 (ix2 p q) + x1 (ix2 (0 : Fin 1) q)
  rw [broadcastTo_1b_ab_apply]

/-- Bias, then the maximum with a splat of the zero word. -/
theorem kernel_biasRelu (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ x0 h0) (broadcastTo ⟨2, ![M, N]⟩ (shapeCast ⟨2, ![1, N]⟩ x1 h1) hb))
        (broadcast ⟨2, ![M, N]⟩ (Scalar.ofBits (F := Ideal) .f32 0x00000000#32))
      = biasRelu x0 x1 := by
  rw [addf_cast_broadcastTo]
  exact maximumf_splat_zero _

/-- The reduced index p with column k put back is (p, k). -/
theorem lift_axis1 (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A lane maximum from minus infinity, kept as a vector over the rows, is the row's largest entry. -/
theorem reduce_max_row (Y : FVec Ideal ⟨2, ![M, N]⟩ .f32) (hr : (⟨2, ![M, N]⟩ : Shape).Reduces [1] (⟨1, ![M]⟩ : Shape))
    (hφ : FKind.Formats .f32) (hacc : (0xFF800000#32 : BitVec 32) = FKind.maximumf.neutral .f32 hφ) (p : Fin M) :
    multiReduction .maximumf [1] ⟨1, ![M]⟩ Y 0xFF800000#32 hr hφ hacc (ix1 p) = rowMax Y p := by
  refine (Ideal.multiReduction_maximumf_single Y 0xFF800000#32 hr hφ hacc (ix1 p)).trans ?_
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- A lane sum from zero, kept as a vector over the rows, is the sum over the row. -/
theorem reduce_add_row (Z : FVec Ideal ⟨2, ![M, N]⟩ .f32) (hr : (⟨2, ![M, N]⟩ : Shape).Reduces [1] (⟨1, ![M]⟩ : Shape))
    (hφ : FKind.Formats .f32) (hacc : (0x00000000#32 : BitVec 32) = FKind.add.neutral .f32 hφ) (p : Fin M) :
    multiReduction .add [1] ⟨1, ![M]⟩ Z 0x00000000#32 hr hφ hacc (ix1 p) = ∑ k : Fin N, Z (ix2 p k) := by
  refine (Ideal.multiReduction_add_single Z 0x00000000#32 hr hφ hacc (ix1 p)).trans ?_
  show ∑ k : Fin N, Z (hr.lift (ix1 p) k) = _
  exact Finset.sum_congr rfl fun k _ => congrArg Z (lift_axis1 hr p k)

/-- A column broadcast along the rows' second axis, read at (p, q): the column's entry p. -/
theorem broadcastTo_a1_ab_apply {α : Type} (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- The vector unit's logarithm of the row-wise softmax: the row maxima and the row sums are lane reductions kept as
    columns and broadcast back over the row. -/
theorem kernel_logSoftmax (Y : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    subf (subf Y (broadcastTo ⟨2, ![M, N]⟩ (shapeCast ⟨2, ![M, 1]⟩ (multiReduction .maximumf [1] ⟨1, ![M]⟩ Y 0xFF800000#32 hr hφ hmax) hc) hb))
      (broadcastTo ⟨2, ![M, N]⟩ (log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc)) hb)
      = logSoftmax Y := by
  have hm : ∀ (p : Fin M) (q : Fin N),
      broadcastTo ⟨2, ![M, N]⟩ (shapeCast ⟨2, ![M, 1]⟩ (multiReduction .maximumf [1] ⟨1, ![M]⟩ Y 0xFF800000#32 hr hφ hmax) hc) hb (ix2 p q)
        = rowMax Y p := fun p q => by
    rw [broadcastTo_a1_ab_apply, Cert.Layout.cast_vec_col_apply, reduce_max_row]
  funext i
  obtain ⟨p, q, rfl⟩ : ∃ (p : Fin M) (q : Fin N), i = ix2 p q := ⟨i 0, i 1, eq_ix2 i⟩
  rw [logSoftmax_apply, subf_apply, subf_apply, hm p q, broadcastTo_a1_ab_apply]
  show (Y (ix2 p q) - rowMax Y p) - Ideal.log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc (ix2 p (0 : Fin 1))) = _
  rw [Cert.Layout.cast_vec_col_apply, reduce_add_row]
  refine congrArg (fun s => (Y (ix2 p q) - rowMax Y p) - Ideal.log s) (Finset.sum_congr rfl fun k _ => ?_)
  show Ideal.exp (Y (ix2 p k) - broadcastTo ⟨2, ![M, N]⟩ (shapeCast ⟨2, ![M, 1]⟩ (multiReduction .maximumf [1] ⟨1, ![M]⟩ Y 0xFF800000#32 hr hφ hmax) hc) hb (ix2 p k)) = _
  rw [hm p k]

/-- Bias, then the vector unit's logarithm of the row-wise softmax. -/
theorem kernel_biasLogSoftmax (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩)
    (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb2 : (⟨2, ![M, 1]⟩ : Shape).Broadcasts ⟨2, ![M, N]⟩) :
    subf (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2))
      (broadcastTo ⟨2, ![M, N]⟩ (log (shapeCast ⟨2, ![M, 1]⟩ (multiReduction .add [1] ⟨1, ![M]⟩
        (exp (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2)))
        0x00000000#32 hr hφ hadd) hc)) hb2)
      = biasLogSoftmax x0 x1 := by
  rw [addf_cast_broadcastTo]
  exact kernel_logSoftmax _ hr hφ hmax hadd hc hb2

/-! ## As the host spells them -/

/-- A vector reshaped to one row is its one-row layout. -/
theorem shapeCast_row (b : Row N) (h : (⟨1, ![N]⟩ : Shape).ShapeCasts ⟨2, ![1, N]⟩) :
    shapeCast ⟨2, ![1, N]⟩ b h = rowOf b := by
  funext i
  obtain ⟨r, q, rfl⟩ : ∃ (r : Fin 1) (q : Fin N), i = ix2 r q := ⟨i 0, i 1, eq_ix2 i⟩
  obtain rfl : r = 0 := Subsingleton.elim _ _
  exact Cert.Layout.cast_vec_row_apply b h q

/-- The host's bias: the vector broadcast to one row and then over the rows, added. -/
theorem host_addRow (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf A (broadcastInDim ⟨2, ![M, N]⟩ ![0, 1] h2 (broadcastInDim ⟨2, ![1, N]⟩ ![1] h1 b)) = addRow A (rowOf b) := by
  funext i
  obtain ⟨p, q, rfl⟩ : ∃ (p : Fin M) (q : Fin N), i = ix2 p q := ⟨i 0, i 1, eq_ix2 i⟩
  show A (ix2 p q) + broadcastInDim ⟨2, ![M, N]⟩ ![0, 1] h2 (broadcastInDim ⟨2, ![1, N]⟩ ![1] h1 b) (ix2 p q) = A (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The host's bias and rectifier. -/
theorem host_biasRelu (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu A (rowOf b) := by
  rw [host_addRow]
  exact maximumf_broadcastInDim_zero _ h0

/-- The maximum with minus infinity changes nothing. -/
theorem max_negInf (z : EReal) : max negInf z = z := by
  show max (Ideal.ofBits .f32 0xFF800000#32) z = z
  simp [Ideal.ofBits, Ideal.ieee]

/-- A column broadcast over the rows' second axis by the host, read at (p, q): the column's entry p. -/
theorem broadcastInDim_a1_ab_apply {α : Type} (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if M = 1 then 0 else p.val
      split
      · have := p.isLt; omega
      · rfl
    | ⟨1, _⟩ =>
      show 0 = if (1 : ℕ) = 1 then 0 else q.val
      rw [if_pos rfl])

/-- The host's row maximum from minus infinity, at row p: the row's largest entry. -/
theorem host_reduce_max_row (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduce FloatOps.maximumf Y (constant (F := Ideal) ⟨0, ![]⟩ .f32 0xFF800000#32) hrt hu (ix1 p) = rowMax Y p := by
  rw [Host.reduce_eq_fold_single FloatOps.maximumf Y _ hrt hr hu]
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- The host's row sum from zero, at row p. -/
theorem host_reduce_add_row (Z : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduceAdd Z (constant (F := Ideal) ⟨0, ![]⟩ .f32 0x00000000#32) hrt hu (ix1 p) = ∑ k : Fin N, Z (ix2 p k) := by
  simp only [Host.reduceAdd, Ideal.hostReduceAdd_def]
  rw [Ideal.hostReduceAdd_single hrt hr]
  show Ideal.ofBits .f32 0x00000000#32 + ∑ k : Fin N, Z (hr.lift (ix1 p) k) = _
  rw [Ideal.ofBits_zero_f32, zero_add]
  exact Finset.sum_congr rfl fun k _ => congrArg Z (lift_axis1 hr p k)

/-- The host's logarithm of the row-wise softmax: the row maxima (taken once more against minus infinity) and the row
    sums are reductions broadcast back to a column and then over the row. -/
theorem host_logSoftmax (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (hb0 : (⟨0, ![]⟩ : Shape).BroadcastsInDim ⟨1, ![M]⟩ ![]) (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu)))))
      (broadcastInDim ⟨2, ![M, N]⟩ ![0, 1] hb2 (Host.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu))))
      = logSoftmax Y := by
  have hm : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p q)
        = rowMax Y p := fun p q => by
    rw [broadcastInDim_a1_ab_apply, Cert.Layout.bcast_vec_col_apply, maximumf_apply, Cert.Layout.bcast_scalar_apply,
      host_reduce_max_row Y hrt hr hu p]
    exact max_negInf _
  funext i
  obtain ⟨p, q, rfl⟩ : ∃ (p : Fin M) (q : Fin N), i = ix2 p q := ⟨i 0, i 1, eq_ix2 i⟩
  rw [logSoftmax_apply, subf_apply, subf_apply, hm p q, broadcastInDim_a1_ab_apply]
  show (Y (ix2 p q) - rowMax Y p) - Ideal.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu) (ix2 p (0 : Fin 1))) = _
  rw [Cert.Layout.bcast_vec_col_apply, host_reduce_add_row _ hrt hr hu p]
  refine congrArg (fun s => (Y (ix2 p q) - rowMax Y p) - Ideal.log s) (Finset.sum_congr rfl fun k _ => ?_)
  show Ideal.exp (Y (ix2 p k) - broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p k)) = _
  rw [hm p k]

end Cert.Gcn

end
-- ==== Proof.LibFusedLayer.lean ====
/-
  A rectified layer fused with the next layer's product, entry by entry, generic in the sizes.

  A layer's activation is its aggregated input plus a bias row, cut at zero. The next layer's transform is that
  activation times a weight matrix, and the head adds one more bias row to every row of its product. Entry (p, q)
  of each of these reads row p of the aggregated input only, so computed on a block of rows they give the rows of
  what they give on the whole array. The vector unit's spelling (casts to the same shape, one-row broadcasts, a
  change of float format before a product into a zero accumulator) and the host's spelling (two-step bias
  broadcasts, a maximum with a broadcast zero, a general dot product) are these same functions on the extended
  reals: a change of float format is the identity there, and both products are the one finite sum.
-/
import proofs.«159396_j23673859735705_2_alg».proof.Proof.LibDense
import proofs.«159396_j23673859735705_2_alg».proof.Proof.LibRowSoftmax

noncomputable section

open scoped BigOperators

namespace Cert.Fused

open Cert.Dense Cert.Gcn Idealize.ShloMosaic Idealize.ShloMosaic.ValueIdx

variable {M M' K N : ℕ}

/-- The activation of the aggregated input `A` under the bias row `b`, times the weights `W`:
    entry (p, q) is the sum over k of max (A(p, k) + b(k)) 0 · W(k, q). -/
def actMm (A : Mat M K) (b : Mat 1 K) (W : Mat K N) : Mat M N := mm (biasRelu A b) W

/-- The same with an output bias row `bo` added to every row: the network's head. -/
def actMmBias (A : Mat M K) (b : Mat 1 K) (W : Mat K N) (bo : Mat 1 N) : Mat M N := addRow (actMm A b W) bo

/-! ## On a block of rows -/

/-- Row p of the block's result is row ρ p of the whole result when row p of the block is row ρ p of the array. -/
theorem actMm_rows (A : Mat M' K) (blk : Mat M K) (b : Mat 1 K) (W : Mat K N) (ρ : Fin M → Fin M')
    (h : ∀ p k, blk (ix2 p k) = A (ix2 (ρ p) k)) (p : Fin M) (q : Fin N) :
    actMm blk b W (ix2 p q) = actMm A b W (ix2 (ρ p) q) :=
  mm_rows (biasRelu A b) (biasRelu blk b) W ρ (fun p k => biasRelu_rows A blk b ρ h p k) p q

theorem actMmBias_rows (A : Mat M' K) (blk : Mat M K) (b : Mat 1 K) (W : Mat K N) (bo : Mat 1 N) (ρ : Fin M → Fin M')
    (h : ∀ p k, blk (ix2 p k) = A (ix2 (ρ p) k)) (p : Fin M) (q : Fin N) :
    actMmBias blk b W bo (ix2 p q) = actMmBias A b W bo (ix2 (ρ p) q) :=
  addRow_rows (actMm A b W) (actMm blk b W) bo ρ (fun p k => actMm_rows A blk b W ρ h p k) p q

/-! ## A block of rows at an offset

The same laws for a block read through an index correspondence: entry `y` of the block is entry `z` of the array
whenever `z` is `y` moved down by `r0` rows. The entry `j` of the block's result is then the entry `i` of the whole
result, `i` being `j` moved down by `r0` rows. -/

theorem mm_block (A : Mat M' K) (blk : Mat M K) (W : Mat K N) (r0 : ℕ)
    (j : (⟨2, ![M, N]⟩ : Shape).Idx) (i : (⟨2, ![M', N]⟩ : Shape).Idx)
    (hblk : ∀ (y : (⟨2, ![M, K]⟩ : Shape).Idx) (z : (⟨2, ![M', K]⟩ : Shape).Idx),
      (z 0).val = r0 + (y 0).val → (z 1).val = (y 1).val → blk y = A z)
    (hi0 : (i 0).val = r0 + (j 0).val) (hi1 : (i 1).val = (j 1).val) :
    mm blk W j = mm A W i := by
  have hq : i 1 = j 1 := Fin.ext hi1
  show ∑ k : Fin K, blk (ix2 (j 0) k) * W (ix2 k (j 1)) = ∑ k : Fin K, A (ix2 (i 0) k) * W (ix2 k (i 1))
  rw [hq]
  refine Finset.sum_congr rfl fun k _ => ?_
  rw [hblk (ix2 (j 0) k) (ix2 (i 0) k) hi0 rfl]

theorem actMm_block (A : Mat M' K) (blk : Mat M K) (b : Mat 1 K) (W : Mat K N) (r0 : ℕ)
    (j : (⟨2, ![M, N]⟩ : Shape).Idx) (i : (⟨2, ![M', N]⟩ : Shape).Idx)
    (hblk : ∀ (y : (⟨2, ![M, K]⟩ : Shape).Idx) (z : (⟨2, ![M', K]⟩ : Shape).Idx),
      (z 0).val = r0 + (y 0).val → (z 1).val = (y 1).val → blk y = A z)
    (hi0 : (i 0).val = r0 + (j 0).val) (hi1 : (i 1).val = (j 1).val) :
    actMm blk b W j = actMm A b W i :=
  mm_block (biasRelu A b) (biasRelu blk b) W r0 j i
    (fun y z h0 h1 => by
      show max (blk y + b (ix2 (0 : Fin 1) (y 1))) 0 = max (A z + b (ix2 (0 : Fin 1) (z 1))) 0
      rw [hblk y z h0 h1, show z 1 = y 1 from Fin.ext h1])
    hi0 hi1

theorem actMmBias_block (A : Mat M' K) (blk : Mat M K) (b : Mat 1 K) (W : Mat K N) (bo : Mat 1 N) (r0 : ℕ)
    (j : (⟨2, ![M, N]⟩ : Shape).Idx) (i : (⟨2, ![M', N]⟩ : Shape).Idx)
    (hblk : ∀ (y : (⟨2, ![M, K]⟩ : Shape).Idx) (z : (⟨2, ![M', K]⟩ : Shape).Idx),
      (z 0).val = r0 + (y 0).val → (z 1).val = (y 1).val → blk y = A z)
    (hi0 : (i 0).val = r0 + (j 0).val) (hi1 : (i 1).val = (j 1).val) :
    actMmBias blk b W bo j = actMmBias A b W bo i := by
  show actMm blk b W j + bo (ix2 (0 : Fin 1) (j 1)) = actMm A b W i + bo (ix2 (0 : Fin 1) (i 1))
  rw [actMm_block A blk b W r0 j i hblk hi0 hi1, show i 1 = j 1 from Fin.ext hi1]

/-! ## As the vector unit spells them -/

/-- The plain product of two blocks, each first changed to the narrow float format, into a zero accumulator. -/
theorem kernel_mm (x0 : FVec Ideal ⟨2, ![M, K]⟩ .f32) (x1 : FVec Ideal ⟨2, ![K, N]⟩ .f32)
    (ht : (FTy.bf16).bits < (FTy.f32).bits) :
    matmul (DotDims.plain M K N) none (truncf .bf16 x0 ht) (truncf .bf16 x1 ht)
        (constant (F := Ideal) ⟨2, ![M, N]⟩ .f32 0x00000000#32)
      = mm x0 x1 :=
  matmul_plain_zero none (truncf .bf16 x0 ht) (truncf .bf16 x1 ht)

/-- Bias, rectifier, change of format, product into a zero accumulator. -/
theorem kernel_actMm (x0 : FVec Ideal ⟨2, ![M, K]⟩ .f32) (x1 : FVec Ideal ⟨2, ![1, K]⟩ .f32) (x2 : FVec Ideal ⟨2, ![K, N]⟩ .f32)
    (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩) (ht : (FTy.bf16).bits < (FTy.f32).bits) :
    matmul (DotDims.plain M K N) none
        (truncf .bf16 (maximumf (addf (shapeCast ⟨2, ![M, K]⟩ x0 h0) (broadcastTo ⟨2, ![M, K]⟩ (shapeCast ⟨2, ![1, K]⟩ x1 h1) hb))
          (broadcast ⟨2, ![M, K]⟩ (Scalar.ofBits (F := Ideal) .f32 0x00000000#32))) ht)
        (truncf .bf16 x2 ht) (constant (F := Ideal) ⟨2, ![M, N]⟩ .f32 0x00000000#32)
      = actMm x0 x1 x2 :=
  (kernel_mm _ x2 ht).trans (congrArg (fun X => mm X x2) (kernel_biasRelu x0 x1 h0 h1 hb))

/-- A one-row matrix (cast to its own shape) broadcast over the rows and added. -/
theorem addf_broadcastTo_row (X : FVec Ideal ⟨2, ![M, N]⟩ .f32) (x1 : FVec Ideal ⟨2, ![1, N]⟩ .f32)
    (h1 : (⟨2, ![1, N]⟩ : Shape).ShapeCasts ⟨2, ![1, N]⟩) (hb : (⟨2, ![1, N]⟩ : Shape).Broadcasts ⟨2, ![M, N]⟩) :
    addf X (broadcastTo ⟨2, ![M, N]⟩ (shapeCast ⟨2, ![1, N]⟩ x1 h1) hb) = addRow X x1 := by
  rw [shapeCast_self]
  funext i
  obtain ⟨p, q, rfl⟩ : ∃ (p : Fin M) (q : Fin N), i = ix2 p q := ⟨i 0, i 1, eq_ix2 i⟩
  show X (ix2 p q) + broadcastTo ⟨2, ![M, N]⟩ x1 hb (ix2 p q) = X (ix2 p q) + x1 (ix2 (0 : Fin 1) q)
  rw [broadcastTo_1b_ab_apply]

/-- The head: the same, then the output bias row broadcast over the rows and added. -/
theorem kernel_actMmBias (x0 : FVec Ideal ⟨2, ![M, K]⟩ .f32) (x1 : FVec Ideal ⟨2, ![1, K]⟩ .f32) (x2 : FVec Ideal ⟨2, ![K, N]⟩ .f32)
    (x3 : FVec Ideal ⟨2, ![1, N]⟩ .f32)
    (h0 : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩) (ht : (FTy.bf16).bits < (FTy.f32).bits)
    (h3 : (⟨2, ![1, N]⟩ : Shape).ShapeCasts ⟨2, ![1, N]⟩) (hb3 : (⟨2, ![1, N]⟩ : Shape).Broadcasts ⟨2, ![M, N]⟩) :
    addf (matmul (DotDims.plain M K N) none
        (truncf .bf16 (maximumf (addf (shapeCast ⟨2, ![M, K]⟩ x0 h0) (broadcastTo ⟨2, ![M, K]⟩ (shapeCast ⟨2, ![1, K]⟩ x1 h1) hb))
          (broadcast ⟨2, ![M, K]⟩ (Scalar.ofBits (F := Ideal) .f32 0x00000000#32))) ht)
        (truncf .bf16 x2 ht) (constant (F := Ideal) ⟨2, ![M, N]⟩ .f32 0x00000000#32))
      (broadcastTo ⟨2, ![M, N]⟩ (shapeCast ⟨2, ![1, N]⟩ x3 h3) hb3)
      = actMmBias x0 x1 x2 x3 := by
  rw [kernel_actMm x0 x1 x2 h0 h1 hb ht, addf_broadcastTo_row]
  rfl

/-! ## As the host spells them -/

/-- Bias by two broadcasts, maximum with a broadcast zero, general dot product. -/
theorem host_actMm (A : FVec Ideal ⟨2, ![M, K]⟩ .f32) (b : FVec Ideal ⟨1, ![K]⟩ .f32) (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) :
    Host.dotGeneral (F := Ideal) (DotDims.plain M K N) none
        (maximumf (addf A (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) W
      = actMm A (rowOf b) W :=
  (dotGeneral_plain _ W).trans (congrArg (fun X => mm X W) (host_biasRelu A b h1 h2 h0))

/-- The head on the host: the same, then the output bias by two broadcasts. -/
theorem host_actMmBias (A : FVec Ideal ⟨2, ![M, K]⟩ .f32) (b : FVec Ideal ⟨1, ![K]⟩ .f32) (W : FVec Ideal ⟨2, ![K, N]⟩ .f32)
    (bo : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) :
    addf (Host.dotGeneral (F := Ideal) (DotDims.plain M K N) none
        (maximumf (addf A (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32))) W)
      (broadcastInDim ⟨2, ![M, N]⟩ ![0, 1] g2 (broadcastInDim ⟨2, ![1, N]⟩ ![1] g1 bo))
      = actMmBias A (rowOf b) W (rowOf bo) := by
  rw [host_actMm A b W h1 h2 h0]
  exact host_addRow (actMm A (rowOf b) W) bo g1 g2

end Cert.Fused

end
-- ==== Proof.Region0.lean ====
/-
  The first region as one function of the arrays it is entered with.

  The region walks 20 blocks of 5000 rows. At block t it reads rows 5000·t … 5000·t + 4999 of the feature matrix
  and the whole weight matrix, multiplies them (the change to the narrow float format is the identity on the
  extended reals, the accumulator starts at zero), and writes the 5000 × 128 product back at the same rows.
  Entry (r, q) of a matrix product reads row r of the left factor only, so each block's product is the
  corresponding rows of the product of the whole arrays; the 20 blocks tile the 100000 rows, so after the region
  the output array is that product.
-/
import proofs.«159396_j23673859735705_2_alg».proof.Proof.Gen.KernelIdeal.Frame
import proofs.«159396_j23673859735705_2_alg».proof.Proof.LibFusedLayer

set_option maxRecDepth 16384

noncomputable section

namespace Cert.KernelIdeal.Whole

open Cert.KernelIdeal Cert.KernelIdeal.Gen Cert.Dense Cert.Fused
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- What the body stores is the product of the two blocks it loads. -/
theorem product_of_blocks (x0 : Vec Ideal S5000x128 .f32) (x1 : Vec Ideal S128x128 .f32) :
    k0_pay1 x0 x1 = mm (M := 5000) (K := 128) (N := 128) x0 x1 :=
  kernel_mm (M := 5000) (K := 128) (N := 128) x0 x1 bitsLt_bf16_f32

/-- The block indices over the grid: the feature and output windows sit at block (t, 0), the weights at (0, 0). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks is some point's. -/
theorem block_onto0 : ∀ q : Fin 20, ∃ t : Fin cfg0.N, win0_2.index t = ![q.val, 0] :=
  (by decide +kernel : ∀ q : Fin 20, ∃ t : Fin grid0.N, win0_2.index t = ![q.val, 0])

/-- The weight window's one block is the whole weight matrix. -/
theorem weights_block0 (c : Dev nD) (t : Fin cfg0.N) : iblk0 V c 1 t = V c main_arg2 := by
  obtain ⟨e0, e1, e2, e3, e4, e5⟩ := block_index0 t
  funext y
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the product of the whole arrays. -/
theorem flushed0 (c : Dev nD) (t : Fin cfg0.N) :
    (dat0 V c).flushed 2 t
      = ((cfg0.win 2).blk t).view.read (Elt Ideal) (mm (M := 100000) (K := 128) (N := 128) (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  rw [product_of_blocks, weights_block0]
  obtain ⟨e0, e1, e2, e3, e4, e5⟩ := block_index0 t
  funext j
  show mm (M := 5000) (K := 128) (N := 128) (iblk0 V c 0 t) (V c main_arg2) j
    = mm (M := 100000) (K := 128) (N := 128) (V c main_arg0) (V c main_arg2) (((cfg0.win 2).blk t).view.emb j)
  refine mm_block (M := 5000) (M' := 100000) (V c main_arg0) (iblk0 V c 0 t) (V c main_arg2) (t.val * 5000) j _ ?_ ?_ ?_
  · intro y z h0 h1
    show V c main_arg0 (((cfg0.win 0).blk t).view.emb y) = V c main_arg0 z
    refine congrArg (V c main_arg0) ?_
    funext a; apply Fin.ext
    match a with
    | ⟨0, _⟩ => show win0_0.index t (0 : Fin 2) * 5000 + 1 * (y 0).val = (z 0).val; omega
    | ⟨1, _⟩ => show win0_0.index t (1 : Fin 2) * 128 + 1 * (y 1).val = (z 1).val; omega
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The blocks tile the output array: row r is in block r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the product of the feature matrix and the weights as it found them. -/
theorem region0_out (c : Dev nD) :
    (dat0 V c).arrAt 2 cfg0.N = mm (M := 100000) (K := 128) (N := 128) (V c main_arg0) (V c main_arg2) :=
  (dat0 V c).arrAt_eq_of_cover 2 _ (fun t _ => flushed0 V c t) cover0

/-- The arrays it only reads end as it found them. -/
theorem region0_in0 (c : Dev nD) : (dat0 V c).arrAt 0 cfg0.N = V c main_arg0 :=
  ((dat0 V c).arrAt_in 0 rfl cfg0.N).trans (A_eq0 V c 0)
theorem region0_in1 (c : Dev nD) : (dat0 V c).arrAt 1 cfg0.N = V c main_arg2 :=
  ((dat0 V c).arrAt_in 1 rfl cfg0.N).trans (A_eq0 V c 1)

end Cert.KernelIdeal.Whole

end
-- ==== Proof.Region1.lean ====
/-
  The second region as one function of the arrays it is entered with.

  At block t the region reads rows 5000·t … 5000·t + 4999 of the aggregated features, the whole bias row and the whole
  second weight matrix; it adds the bias row to every row, cuts at zero, and multiplies by the weights into a zero
  accumulator (the change to the narrow float format is the identity on the extended reals). Entry (r, q) of that
  result reads row r of the aggregated features only, so each block's result is the corresponding rows of the same
  function of the whole arrays, and the 20 blocks tile the 100000 rows.
-/
import proofs.«159396_j23673859735705_2_alg».proof.Proof.Gen.KernelIdeal.Frame
import proofs.«159396_j23673859735705_2_alg».proof.Proof.LibFusedLayer

set_option maxRecDepth 16384

noncomputable section

namespace Cert.KernelIdeal.Whole

open Cert.KernelIdeal Cert.KernelIdeal.Gen Cert.Dense Cert.Fused
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2_layer : (![0, 0] : Fin 2 → Nat) = fun _ => 0 := funext fun a => by fin_cases a <;> rfl

/-- What the body stores is the rectified, biased block times the weights. -/
theorem layer_of_blocks (x0 : Vec Ideal S5000x128 .f32) (x1 : Vec Ideal S1x128 .f32) (x2 : Vec Ideal S128x64 .f32) :
    k1_pay1 x0 x1 x2 = actMm (M := 5000) (K := 128) (N := 64) x0 x1 x2 :=
  kernel_actMm (M := 5000) (K := 128) (N := 64) x0 x1 x2 shapeCasts_S5000x128_S5000x128 shapeCasts_S1x128_S1x128
    broadcasts_S1x128_S5000x128 bitsLt_bf16_f32

/-- The block indices over the grid: the feature and output windows sit at block (t, 0), bias and weights at (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every one of the 20 row blocks is some point's. -/
theorem block_onto1 : ∀ q : Fin 20, ∃ t : Fin cfg1.N, win1_3.index t = ![q.val, 0] :=
  (by decide +kernel : ∀ q : Fin 20, ∃ t : Fin grid1.N, win1_3.index t = ![q.val, 0])

/-- The bias window's one block is the whole bias row. -/
theorem bias_block1 (c : Dev nD) (t : Fin cfg1.N) : iblk1 V c 1 t = V c main_v46 := by
  obtain ⟨e0, e1, e2, e3, e4, e5, e6, e7⟩ := block_index1 t
  funext y
  show V c main_v46 (((cfg1.win 1).blk t).view.emb y) = V c main_v46 y
  refine congrArg (V c main_v46) ?_
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The weight window's one block is the whole weight matrix. -/
theorem weights_block1 (c : Dev nD) (t : Fin cfg1.N) : iblk1 V c 2 t = V c main_arg4 := by
  obtain ⟨e0, e1, e2, e3, e4, e5, e6, e7⟩ := block_index1 t
  funext y
  show V c main_arg4 (((cfg1.win 2).blk t).view.emb y) = V c main_arg4 y
  refine congrArg (V c main_arg4) ?_
  funext a; apply Fin.ext
  match a with
  | ⟨0, _⟩ => show win1_2.index t (0 : Fin 2) * 128 + 1 * (y 0).val = (y 0).val; omega
  | ⟨1, _⟩ => show win1_2.index t (1 : Fin 2) * 64 + 1 * (y 1).val = (y 1).val; omega

/-- What point t writes back is block t of the layer of the whole arrays. -/
theorem flushed1 (c : Dev nD) (t : Fin cfg1.N) :
    (dat1 V c).flushed 3 t
      = ((cfg1.win 3).blk t).view.read (Elt Ideal)
          (actMm (M := 100000) (K := 128) (N := 64) (V c main_v45) (V c main_v46) (V c main_arg4)) := by
  show (cfg1.win 3).cut (grid1.coords t) ((dat1 V c).after 3 t) = _
  rw [after1_3]
  unfold out1_3
  rw [View.canon_unit_zero origin2_layer]
  simp only [View.ld_unit_zero (S := S5000x128) origin2_layer, View.ld_unit_zero (S := S1x128) origin2_layer,
    View.ld_unit_zero (S := S128x64) origin2_layer]
  rw [layer_of_blocks, bias_block1, weights_block1]
  obtain ⟨e0, e1, e2, e3, e4, e5, e6, e7⟩ := block_index1 t
  funext j
  show actMm (M := 5000) (K := 128) (N := 64) (iblk1 V c 0 t) (V c main_v46) (V c main_arg4) j
    = actMm (M := 100000) (K := 128) (N := 64) (V c main_v45) (V c main_v46) (V c main_arg4) (((cfg1.win 3).blk t).view.emb j)
  refine actMm_block (M := 5000) (M' := 100000) (V c main_v45) (iblk1 V c 0 t) (V c main_v46) (V c main_arg4) (t.val * 5000) j _ ?_ ?_ ?_
  · intro y z h0 h1
    show V c main_v45 (((cfg1.win 0).blk t).view.emb y) = V c main_v45 z
    refine congrArg (V c main_v45) ?_
    funext a; apply Fin.ext
    match a with
    | ⟨0, _⟩ => show win1_0.index t (0 : Fin 2) * 5000 + 1 * (y 0).val = (z 0).val; omega
    | ⟨1, _⟩ => show win1_0.index t (1 : Fin 2) * 128 + 1 * (y 1).val = (z 1).val; omega
  · show win1_3.index t (0 : Fin 2) * 5000 + 1 * (j 0).val = t.val * 5000 + (j 0).val; omega
  · show win1_3.index t (1 : Fin 2) * 64 + 1 * (j 1).val = (j 1).val; omega

/-- An index of the output array is in point t's block iff each coordinate is in the block's range on its axis. -/
theorem mem_block1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- The blocks tile the output array: row r is in block r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := block_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region its output array is the layer of the arrays as it found them. -/
theorem region1_out (c : Dev nD) :
    (dat1 V c).arrAt 3 cfg1.N = actMm (M := 100000) (K := 128) (N := 64) (V c main_v45) (V c main_v46) (V c main_arg4) :=
  (dat1 V c).arrAt_eq_of_cover 3 _ (fun t _ => flushed1 V c t) cover1

/-- The arrays it only reads end as it found them. -/
theorem region1_in0 (c : Dev nD) : (dat1 V c).arrAt 0 cfg1.N = V c main_v45 :=
  ((dat1 V c).arrAt_in 0 rfl cfg1.N).trans (A_eq1 V c 0)
theorem region1_in1 (c : Dev nD) : (dat1 V c).arrAt 1 cfg1.N = V c main_v46 :=
  ((dat1 V c).arrAt_in 1 rfl cfg1.N).trans (A_eq1 V c 1)
theorem region1_in2 (c : Dev nD) : (dat1 V c).arrAt 2 cfg1.N = V c main_arg4 :=
  ((dat1 V c).arrAt_in 2 rfl cfg1.N).trans (A_eq1 V c 2)

end Cert.KernelIdeal.Whole

end
-- ==== Proof.Region2.lean ====
/-
  The third region as one function of the arrays it is entered with.

  At block t the region reads rows 5000·t … 5000·t + 4999 of the aggregated output and the whole bias row, and adds the
  bias row to every row. Entry (r, q) of the result is entry (r, q) of the input plus entry q of the row, so each
  block's result is the corresponding rows of the same function of the whole arrays, and the 20 blocks tile the
  100000 rows.
-/
import proofs.«159396_j23673859735705_2_alg».proof.Proof.Gen.KernelIdeal.Frame
import proofs.«159396_j23673859735705_2_alg».proof.Proof.LibRowSoftmax

set_option maxRecDepth 16384

noncomputable section

namespace Cert.KernelIdeal.Whole

open Cert.KernelIdeal Cert.KernelIdeal.Gen Cert.Dense Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2_bias : (![0, 0] : Fin 2 → Nat) = fun _ => 0 := funext fun a => by fin_cases a <;> rfl

/-- What the body stores is the block with the bias row added to every row. -/
theorem bias_of_blocks (x0 : Vec Ideal S5000x64 .f32) (x1 : Vec Ideal S1x64 .f32) :
    k2_pay1 x0 x1 = addRow (M := 5000) (N := 64) x0 x1 :=
  addf_cast_broadcastTo (M := 5000) (N := 64) x0 x1 shapeCasts_S5000x64_S5000x64 shapeCasts_S1x64_S1x64 broadcasts_S1x64_S5000x64

/-- Entry j of a block with the bias row added is entry i of the whole array with the bias row added, when the block's
    entry j is the array's entry i and the two entries are in one column. -/
theorem addRow_entry {M M' N : ℕ} (A : Mat M' N) (blk : Mat M N) (b : Mat 1 N)
    (j : (⟨2, ![M, N]⟩ : Shape).Idx) (i : (⟨2, ![M', N]⟩ : Shape).Idx) (hblk : blk j = A i) (hcol : i 1 = j 1) :
    addRow blk b j = addRow A b i := by
  show blk j + b (ix2 (0 : Fin 1) (j 1)) = A i + b (ix2 (0 : Fin 1) (i 1))
  rw [hblk, hcol]

/-- The block indices over the grid: the input and output windows sit at block (t, 0), the bias row at (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the 20 row blocks is some point's. -/
theorem block_onto2 : ∀ q : Fin 20, ∃ t : Fin cfg2.N, win2_2.index t = ![q.val, 0] :=
  (by decide +kernel : ∀ q : Fin 20, ∃ t : Fin grid2.N, win2_2.index t = ![q.val, 0])

/-- The bias window's one block is the whole bias row. -/
theorem bias_block2 (c : Dev nD) (t : Fin cfg2.N) : iblk2 V c 1 t = V c main_v58 := by
  obtain ⟨e0, e1, e2, e3, e4, e5⟩ := block_index2 t
  funext y
  show V c main_v58 (((cfg2.win 1).blk t).view.emb y) = V c main_v58 y
  refine congrArg (V c main_v58) ?_
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- What point t writes back is block t of the whole array with the bias row added. -/
theorem flushed2 (c : Dev nD) (t : Fin cfg2.N) :
    (dat2 V c).flushed 2 t
      = ((cfg2.win 2).blk t).view.read (Elt Ideal) (addRow (M := 100000) (N := 64) (V c main_v57) (V c main_v58)) := by
  show (cfg2.win 2).cut (grid2.coords t) ((dat2 V c).after 2 t) = _
  rw [after2_2]
  unfold out2_2
  rw [View.canon_unit_zero origin2_bias]
  simp only [View.ld_unit_zero (S := S5000x64) origin2_bias, View.ld_unit_zero (S := S1x64) origin2_bias]
  rw [bias_of_blocks, bias_block2]
  obtain ⟨e0, e1, e2, e3, e4, e5⟩ := block_index2 t
  funext j
  show addRow (M := 5000) (N := 64) (iblk2 V c 0 t) (V c main_v58) j
    = addRow (M := 100000) (N := 64) (V c main_v57) (V c main_v58) (((cfg2.win 2).blk t).view.emb j)
  refine addRow_entry (M := 5000) (M' := 100000) (N := 64) (V c main_v57) (iblk2 V c 0 t) (V c main_v58) j _ ?_ ?_
  · show V c main_v57 (((cfg2.win 0).blk t).view.emb j) = V c main_v57 (((cfg2.win 2).blk t).view.emb j)
    refine congrArg (V c main_v57) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  · apply Fin.ext
    show win2_2.index t (1 : Fin 2) * 64 + 1 * (j 1).val = (j 1).val; omega

/-- An index of the output array is in point t's block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v59).slice (win2_2.rect t)).set ↔ _
  rw [View.set_slice_whole, Rect.mem_set_unit]
  exact Iff.rfl

/-- The blocks tile the output array: row r is in block r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region its output array is its input array with the bias row added to every row. -/
theorem region2_out (c : Dev nD) :
    (dat2 V c).arrAt 2 cfg2.N = addRow (M := 100000) (N := 64) (V c main_v57) (V c main_v58) :=
  (dat2 V c).arrAt_eq_of_cover 2 _ (fun t _ => flushed2 V c t) cover2

/-- The arrays it only reads end as it found them. -/
theorem region2_in0 (c : Dev nD) : (dat2 V c).arrAt 0 cfg2.N = V c main_v57 :=
  ((dat2 V c).arrAt_in 0 rfl cfg2.N).trans (A_eq2 V c 0)
theorem region2_in1 (c : Dev nD) : (dat2 V c).arrAt 1 cfg2.N = V c main_v58 :=
  ((dat2 V c).arrAt_in 1 rfl cfg2.N).trans (A_eq2 V c 1)

end Cert.KernelIdeal.Whole

end
-- ==== Proof.LibRegionOp.lean ====
/-
  A pipelined region as one host operation on the buffer contents.

  A region replaces the contents of its own arrays and leaves every other buffer as it found it. A host operation
  replaces the contents of the buffers it writes and leaves every other buffer as it found it. So when an operation
  writes only arrays of the region, and at each of the region's arrays it leaves exactly what the region leaves there
  (for an array the region only reads: the contents it had), the region and the operation are the same function of
  the buffer contents. A program of regions among host operations is then one line of host operations, and its
  contents at any buffer are computed as a fold. Also here: the fold over a concatenation of two lines is the fold
  over the second from the fold over the first.
-/
import Idealize.ShloMosaic.Lib.Pipeline.FrameSuffix
import Idealize.ShloMosaic.Lib.StableHlo.Run

noncomputable section

namespace Cert.RegionOp

open Idealize.ShloMosaic Idealize.ShloMosaic.TcCoe Idealize.SL.Sem

variable {nD : Nat} {τ : Topo} {sig : RefSig} {Val : EltTy → Type}

/-- A region that leaves `A` in its arrays is the host operation `op` on the buffer contents, when `op` leaves `A w`
    in each array `w` of the region and writes no other buffer. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ))) (op : HloOp τ sig Val)
    (harr : ∀ w, A w = op.result V (Proc.devRef .tc (Pipeline.arrRef win w)))
    (hwr : ∀ b ∈ op.writes, ∃ w, Proc.devRef .tc (Pipeline.arrRef win w) = b) :
    Pipeline.withArrays win c V A = op.result V := by
  funext b
  by_cases h : ∃ w, Proc.devRef .tc (Pipeline.arrRef win w) = b
  · obtain ⟨w, rfl⟩ := h
    rw [Pipeline.withArrays_arr win hinj]
    exact harr w
  · unfold Pipeline.withArrays
    rw [dif_neg h]
    exact (op.result_of_not_mem V fun hb => h (hwr b hb)).symm

/-- An operation that writes the one buffer `y` leaves every other buffer as it was. -/
theorem result_keep (op : HloOp τ sig Val) (V : Valuation τ sig Val) (y r : Ref sig .tc)
    (hw : op.writes = {Proc.devRef .tc y}) (h : r ≠ y) : op.result V (Proc.devRef .tc r) = V (Proc.devRef .tc r) :=
  op.result_of_not_mem V (by rw [hw, Finset.mem_singleton]; exact StableHlo.devRef_ne_of_ne h)

/-- The fold over two lines in a row. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- One operation as a line of one. -/
theorem after_singleton (op : HloOp τ sig Val) (V : Valuation τ sig Val) : StableHlo.after [op] V = op.result V := rfl

end Cert.RegionOp

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.LibCount.lean ====
/-
  The clipped neighbour count is a nonzero real.

  Scattering the constant one into a zero column by an index column adds, at row p, one for every update row whose
  index names p: the count of such rows, a natural number. Its maximum with one is therefore a real number not
  below one, in particular not zero — which is what dividing by it, or multiplying by its reciprocal, needs.
-/
import proofs.«159396_j23673859735705_2_alg».proof.Proof.LibIndexed

noncomputable section

open scoped BigOperators

namespace Cert.Count

open Idealize.ShloMosaic Idealize.ShloMosaic.ValueIdx Cert.Indexed

/-- A finite sum of ones on the extended reals is the number of terms, a real. -/
theorem sum_one_real {ι : Type*} (s : Finset ι) : ∑ _r ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The count column clipped below at one: a real not below one at every row. -/
theorem clipped_count_real {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (hx : ∀ i, x i = 0) (hu : ∀ j, upd j = 1) (p : Fin N) :
    ∃ r : ℝ, r ≠ 0 ∧ max (Ideal.hostScatterAdd (rowScatter N 1 M wf) x idx upd (ix2 p (0 : Fin 1))) 1 = (r : EReal) := by
  rw [rowScatterAdd_apply, hx, zero_add]
  simp only [hu]
  rw [sum_one_real]
  refine ⟨max ((Finset.univ.filter fun r : Fin M => Names (idx (ix2 r (0 : Fin 1))) p).card : ℝ) 1, ?_, ?_⟩
  · exact ne_of_gt (lt_of_lt_of_le one_pos (le_max_right _ _))
  · exact (EReal.coe_strictMono.monotone.map_max (a := ((Finset.univ.filter fun r : Fin M => Names (idx (ix2 r (0 : Fin 1))) p).card : ℝ)) (b := 1)).symm

end Cert.Count

end
-- ==== Proof.LibLiterals.lean ====
/-
  The float literals the two programs scatter, read on the extended reals: the words of one and
  of zero in bf16 and in f32 denote `1` and `0`.
-/
import Idealize.ShloMosaic.PureOps.Ideal
import Idealize.ShloMosaic.PureOps.Ideal.Laws

namespace Cert.LibLiterals

open Idealize.ShloMosaic

/-- The bf16 word `0x3F80` (sign 0, exponent 127, fraction 0) denotes `1`. -/
theorem ofBits_bf16_one : Ideal.ofBits .bf16 0x3F80#16 = (1 : EReal) := by
  simp [Ideal.ofBits, Ideal.ieee, -EReal.coe_mul]; norm_num

/-- The f32 word `0x3F800000` (sign 0, exponent 127, fraction 0) denotes `1`. -/
theorem ofBits_f32_one : Ideal.ofBits .f32 0x3F800000#32 = (1 : EReal) := by
  simp [Ideal.ofBits, Ideal.ieee, -EReal.coe_mul]; norm_num

/-- The bf16 word `0x0000` denotes `0`. -/
theorem ofBits_bf16_zero : Ideal.ofBits .bf16 0x0000#16 = (0 : EReal) := by
  simp [Ideal.ofBits, Ideal.ieee]

/-- The f32 word `0x00000000` denotes `0`. -/
theorem ofBits_f32_zero : Ideal.ofBits .f32 0x00000000#32 = (0 : EReal) := by
  simp [Ideal.ofBits, Ideal.ieee]

/-- The constant array of the bf16 word of one is `1` at every index. -/
theorem constant_bf16_one (s : Shape) (i : s.Idx) :
    (constant s .bf16 0x3F80#16 : FVec Ideal s .bf16) i = (1 : EReal) := ofBits_bf16_one

/-- The constant array of the f32 word of one is `1` at every index. -/
theorem constant_f32_one (s : Shape) (i : s.Idx) :
    (constant s .f32 0x3F800000#32 : FVec Ideal s .f32) i = (1 : EReal) := ofBits_f32_one

/-- The constant array of the bf16 word of zero is `0` at every index. -/
theorem constant_bf16_zero (s : Shape) (i : s.Idx) :
    (constant s .bf16 0x0000#16 : FVec Ideal s .bf16) i = (0 : EReal) := ofBits_bf16_zero

/-- The constant array of the f32 word of zero is `0` at every index. -/
theorem constant_f32_zero (s : Shape) (i : s.Idx) :
    (constant s .f32 0x00000000#32 : FVec Ideal s .f32) i = (0 : EReal) := ofBits_f32_zero

end Cert.LibLiterals
-- ==== Proof.Spec.lean ====
/-
  The two-layer graph convolution as one function of its inputs, and the one place where the two programs differ.

  Both programs add a self-loop to every node, count for every node v the edges that end in v (its degree), take
  c(v) = deg(v)^(-1/2) where deg(v) > 0 and 0 elsewhere, weight edge (s, d) by c(s)·c(d), and compute
  out = S₂(relu(S₁(X·W1) + b1)·W2) + b2, where S₁ sums the weighted rows of its argument along the edges and S₂ sums
  rows along the edges unweighted. They spell c differently: one as the reciprocal square root of max(deg, 1), the
  other as the power deg^(-1/2). A degree is a count — a natural number — so where it is positive it is at least 1,
  max(deg, 1) is deg, and the reciprocal of the square root of a positive real is its power -1/2; where it is zero
  both take the zero branch. The two coefficient arrays are therefore equal, and nothing else differs but the
  spelling of the dense steps.
-/
import proofs.«159396_j23673859735705_2_alg».proof.KernelIdeal
import proofs.«159396_j23673859735705_2_alg».proof.Proof.Gen.KernelIdeal
import proofs.«159396_j23673859735705_2_alg».proof.Proof.LibCount
import proofs.«159396_j23673859735705_2_alg».proof.Proof.LibLiterals
import proofs.«159396_j23673859735705_2_alg».proof.Proof.LibFusedLayer
import Idealize.ShloMosaic.Lib.ValueIdx
import Idealize.ShloMosaic.Lib.Pipeline.Value
import Idealize.ShloMosaic.PureOps.Ideal.Laws

noncomputable section

open scoped BigOperators

namespace Cert.GcnNet

open Cert.KernelIdeal Cert.KernelIdeal.Gen Cert.Dense Cert.Gcn Cert.Fused Cert.Indexed Cert.Count
open Idealize.ShloMosaic Idealize.ShloMosaic.ValueIdx

/-! ## The edge list -/

/-- The source nodes of the edges: row 0 of the edge array. -/
def srcOf (e : IVec S2x1600000 32) : IVec S1600000 32 :=
  shapeCast S1600000 (extractStridedSlice S1x1600000 ![0, 0] e slices_S2x1600000_S1x1600000_0_0) shapeCasts_S1x1600000_S1600000
/-- The destination nodes of the edges: row 1 of the edge array. -/
def dstOf (e : IVec S2x1600000 32) : IVec S1600000 32 :=
  shapeCast S1600000 (extractStridedSlice S1x1600000 ![1, 0] e slices_S2x1600000_S1x1600000_1_0) shapeCasts_S1x1600000_S1600000
/-- Two node lists end to end. -/
def joinLoops (a : IVec S1600000 32) (b : IVec S100000 32) : IVec S1700000 32 :=
  concatenate S1700000 0 [⟨S1600000, a⟩, ⟨S100000, b⟩] concatenates_S1600000_S100000_S1700000_d0
/-- Two node lists end to end, as the programs spell it. -/
theorem joinLoops_def (a : IVec S1600000 32) (b : IVec S100000 32) :
    concatenate S1700000 0 [⟨S1600000, a⟩, ⟨S100000, b⟩] concatenates_S1600000_S100000_S1700000_d0 = joinLoops a b := rfl
/-- A node list followed by every node once: the self-loops. -/
def withLoops (v : IVec S1600000 32) : IVec S1700000 32 := joinLoops v (iotaInDim S100000 32 0)
/-- A node list as an index column, used as it is (scatter indices). -/
def column17 (v : IVec S1700000 32) : IVec S1700000x1 32 := broadcastInDim S1700000x1 ![0] bcast_S1700000_S1700000x1_0 v
def column16 (v : IVec S1600000 32) : IVec S1600000x1 32 := broadcastInDim S1600000x1 ![0] bcast_S1600000_S1600000x1_0 v
/-- A node list as an index column with negative entries moved up by the node count (gather indices). -/
def wrapped17 (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)
def wrapped16 (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-! ## Degrees and coefficients -/

/-- The degree of every node: ones summed at the destinations. -/
def degree (d1 : IVec S1700000 32) : FVec Ideal S100000 .f32 :=
  Host.scatterAdd scatter_S100000_S1700000x1_S1700000_n_0_0_1
    (broadcastInDim S100000 ![] bcast_S_S100000 (constant (F := Ideal) S_ .f32 0x00000000#32)) (column17 d1)
    (broadcastInDim S1700000 ![] bcast_S_S1700000 (constant (F := Ideal) S_ .f32 0x3F800000#32))

/-- The coefficient as the reciprocal square root of the degree clipped below at one, zero where the degree is not positive. -/
def coeffRsqrt (deg : FVec Ideal S100000 .f32) : FVec Ideal S100000 .f32 :=
  select (cmpf (F := Ideal) .ogt deg (broadcastInDim S100000 ![] bcast_S_S100000 (constant (F := Ideal) S_ .f32 0x00000000#32)))
    (Host.rsqrt (maximumf deg (broadcastInDim S100000 ![] bcast_S_S100000 (constant (F := Ideal) S_ .f32 0x3F800000#32))))
    (broadcastInDim S100000 ![] bcast_S_S100000 (id (constant (F := Ideal) S_ .f32 0x00000000#32)))

/-- The coefficient as the power -1/2 of the degree, zero where the degree is not positive. -/
def coeffPow (deg : FVec Ideal S100000 .f32) : FVec Ideal S100000 .f32 :=
  select (cmpf (F := Ideal) .ogt deg (broadcastInDim S100000 ![] bcast_S_S100000 (constant (F := Ideal) S_ .f32 0x00000000#32)))
    (Host.powf deg (broadcastInDim S100000 ![] bcast_S_S100000 (constant (F := Ideal) S_ .f32 0xBF000000#32)))
    (broadcastInDim S100000 ![] bcast_S_S100000 (id (constant (F := Ideal) S_ .f32 0x00000000#32)))

/-- The weight of every edge: the product of its endpoints' coefficients. -/
def edgeWeight (coeff : FVec Ideal S100000 .f32) (s1 d1 : IVec S1700000 32) : FVec Ideal S1700000 .f32 :=
  mulf (Host.gather gather_S100000_S1700000x1_S1700000_n_0_n_n_0_1_1 coeff (wrapped17 s1))
    (Host.gather gather_S100000_S1700000x1_S1700000_n_0_n_n_0_1_1 coeff (wrapped17 d1))

/-! ## The two aggregations -/

/-- The rows of h at the sources, each times its edge's weight, summed at the destinations. -/
def aggregate1 (h : FVec Ideal S100000x128 .f32) (wt : FVec Ideal S1700000 .f32) (s1 d1 : IVec S1700000 32) :
    FVec Ideal S100000x128 .f32 :=
  Host.scatterAdd scatter_S100000x128_S1700000x1_S1700000x128_1_0_0_1
    (broadcastInDim S100000x128 ![] bcast_S_S100000x128 (constant (F := Ideal) S_ .f32 0x00000000#32)) (column17 d1)
    (mulf (Host.gather gather_S100000x128_S1700000x1_S1700000x128_1_0_n_n_0_1_1128 h (wrapped17 s1))
      (broadcastInDim S1700000x128 ![0, 1] bcast_S1700000x1_S1700000x128_0_1
        (broadcastInDim S1700000x1 ![0] bcast_S1700000_S1700000x1_0 wt)))

/-- The rows of y at the sources summed at the destinations. -/
def aggregate2 (y : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (column16 dst)
    (Host.gather gather_S100000x64_S1600000x1_S1600000x64_1_0_n_n_0_1_164 y (wrapped16 src))

/-! ## The network over its four varying parts -/

/-- The network with its four program-dependent parts as parameters: the coefficient array, the first product, the
    second layer as a function of the aggregated features, and the last bias as a function of the aggregated output. -/
def network (coeff : FVec Ideal S100000 .f32) (h : FVec Ideal S100000x128 .f32)
    (layer : FVec Ideal S100000x128 .f32 → FVec Ideal S100000x64 .f32)
    (bias : FVec Ideal S100000x64 .f32 → FVec Ideal S100000x64 .f32) (e : IVec S2x1600000 32) : FVec Ideal S100000x64 .f32 :=
  bias (aggregate2
    (layer (aggregate1 h (edgeWeight coeff (withLoops (srcOf e)) (withLoops (dstOf e))) (withLoops (srcOf e)) (withLoops (dstOf e))))
    (srcOf e) (dstOf e))

/-- The network: what both programs compute. -/
def gcn (x : FVec Ideal S100000x128 .f32) (e : IVec S2x1600000 32) (w1 : FVec Ideal S128x128 .f32) (b1 : FVec Ideal S128 .f32)
    (w2 : FVec Ideal S128x64 .f32) (b2 : FVec Ideal S64 .f32) : FVec Ideal S100000x64 .f32 :=
  network (coeffPow (degree (withLoops (dstOf e)))) (mm (M := 100000) (K := 128) (N := 128) x w1)
    (fun a => actMm (M := 100000) (K := 128) (N := 64) a (rowOf b1) w2) (fun y => addRow (M := 100000) (N := 64) y (rowOf b2)) e

end Cert.GcnNet

end
-- ==== Proof.KernelStages.lean ====
/-
  The kernel program's stretches of host operations, each as functions of the contents it is entered with.

  Between the regions the program runs five stretches of host operations. Each buffer a stretch writes ends at one
  function of the contents the stretch was entered with, and each buffer it does not write keeps its contents. Stated
  for an arbitrary entry valuation, these small facts compose by rewriting: the edge list's two rows and their
  self-looped forms, the degree's comparison and reciprocal square root, the selected coefficient, the edge weights,
  the two aggregations, and the two bias vectors recast as one-row matrices.
-/
import proofs.«159396_j23673859735705_2_alg».proof.Proof.Gen.KernelIdeal.Frame
import proofs.«159396_j23673859735705_2_alg».proof.Proof.Spec

set_option maxRecDepth 16384

noncomputable section

namespace Cert.KernelIdeal.Whole

open Cert.KernelIdeal Cert.KernelIdeal.Gen Cert.Dense Cert.Gcn Cert.Fused Cert.GcnNet
open Idealize.ShloMosaic Idealize.ShloMosaic.TcCoe Idealize.SL.Sem Idealize.ShloMosaic.StableHlo

/-- Evaluates a literal line of host operations at a buffer: each operation's result at its own buffer is its function
    of its operands' contents, at any other buffer what was there; two node lists end to end are named, so that the
    evaluation goes on inside them. -/
macro "eval_ops" : tactic =>
  `(tactic| simp (disch := decide) only [StableHlo.after_cons, StableHlo.after_nil, joinLoops_def,
      StableHlo.nullary_result', StableHlo.unary_result', StableHlo.binary_result', StableHlo.ternary_result', StableHlo.reshape_result',
      StableHlo.nullary_result_ne', StableHlo.unary_result_ne', StableHlo.binary_result_ne', StableHlo.ternary_result_ne',
      StableHlo.reshape_result_ne'])

/-! ## The first stretch: the edge list, the degrees' comparison and reciprocal square root -/

/-- The sources. -/
theorem first_src (V : Valuation τ sig (Elt Ideal)) :
    StableHlo.after hostOps0 V (Proc.devRef .tc main_v1) = srcOf (V (Proc.devRef .tc main_arg1)) := by
  simp only [hostOps0]
  eval_ops <;> rfl
/-- The destinations. -/
theorem first_dst (V : Valuation τ sig (Elt Ideal)) :
    StableHlo.after hostOps0 V (Proc.devRef .tc main_v3) = dstOf (V (Proc.devRef .tc main_arg1)) := by
  simp only [hostOps0]
  eval_ops <;> rfl
/-- The sources with the self-loops. -/
theorem first_srcLoops (V : Valuation τ sig (Elt Ideal)) :
    StableHlo.after hostOps0 V (Proc.devRef .tc main_v5) = withLoops (srcOf (V (Proc.devRef .tc main_arg1))) := by
  simp only [hostOps0]
  eval_ops <;> rfl
/-- The destinations with the self-loops. -/
theorem first_dstLoops (V : Valuation τ sig (Elt Ideal)) :
    StableHlo.after hostOps0 V (Proc.devRef .tc main_v6) = withLoops (dstOf (V (Proc.devRef .tc main_arg1))) := by
  simp only [hostOps0]
  eval_ops <;> rfl
/-- Where the degree is positive. -/
theorem first_positive (V : Valuation τ sig (Elt Ideal)) :
    StableHlo.after hostOps0 V (Proc.devRef .tc main_v12) = cmpf (F := Ideal) .ogt (degree (withLoops (dstOf (V (Proc.devRef .tc main_arg1)))))
      (broadcastInDim S100000 ![] bcast_S_S100000 (constant (F := Ideal) S_ .f32 0x00000000#32)) := by
  simp only [hostOps0]
  eval_ops <;> rfl
/-- The reciprocal square root of the clipped degree. -/
theorem first_rsqrt (V : Valuation τ sig (Elt Ideal)) :
    StableHlo.after hostOps0 V (Proc.devRef .tc main_v15) = Host.rsqrt (maximumf (degree (withLoops (dstOf (V (Proc.devRef .tc main_arg1)))))
      (broadcastInDim S100000 ![] bcast_S_S100000 (constant (F := Ideal) S_ .f32 0x3F800000#32))) := by
  simp only [hostOps0]
  eval_ops <;> rfl
/-- The zero of the selection's other branch. -/
theorem first_zero (V : Valuation τ sig (Elt Ideal)) :
    StableHlo.after hostOps0 V (Proc.devRef .tc main_cst_3) = constant (F := Ideal) S_ .f32 0x00000000#32 := by
  simp only [hostOps0]
  eval_ops <;> rfl
theorem first_keep_arg0 (V : Valuation τ sig (Elt Ideal)) :
    StableHlo.after hostOps0 V (Proc.devRef .tc main_arg0) = V (Proc.devRef .tc main_arg0) := by
  simp only [hostOps0]
  eval_ops <;> rfl
theorem first_keep_arg2 (V : Valuation τ sig (Elt Ideal)) :
    StableHlo.after hostOps0 V (Proc.devRef .tc main_arg2) = V (Proc.devRef .tc main_arg2) := by
  simp only [hostOps0]
  eval_ops <;> rfl
theorem first_keep_arg3 (V : Valuation τ sig (Elt Ideal)) :
    StableHlo.after hostOps0 V (Proc.devRef .tc main_arg3) = V (Proc.devRef .tc main_arg3) := by
  simp only [hostOps0]
  eval_ops <;> rfl
theorem first_keep_arg4 (V : Valuation τ sig (Elt Ideal)) :
    StableHlo.after hostOps0 V (Proc.devRef .tc main_arg4) = V (Proc.devRef .tc main_arg4) := by
  simp only [hostOps0]
  eval_ops <;> rfl
theorem first_keep_arg5 (V : Valuation τ sig (Elt Ideal)) :
    StableHlo.after hostOps0 V (Proc.devRef .tc main_arg5) = V (Proc.devRef .tc main_arg5) := by
  simp only [hostOps0]
  eval_ops <;> rfl

/-! ## The second stretch: the selected coefficient -/

/-- The coefficient: the second operand where the first holds, the broadcast third elsewhere. -/
theorem second_coeff (V : Valuation τ sig (Elt Ideal)) :
    StableHlo.after hostOps0_1 V (Proc.devRef .tc main_v16) = select (V (Proc.devRef .tc main_v12)) (V (Proc.devRef .tc main_v15))
      (broadcastInDim S100000 ![] bcast_S_S100000 (id (V (Proc.devRef .tc main_cst_3)))) := by
  simp only [hostOps0_1]
  eval_ops <;> rfl
theorem second_keep_v1 (V : Valuation τ sig (Elt Ideal)) :
    StableHlo.after hostOps0_1 V (Proc.devRef .tc main_v1) = V (Proc.devRef .tc main_v1) := by
  simp only [hostOps0_1]
  eval_ops <;> rfl
theorem second_keep_v3 (V : Valuation τ sig (Elt Ideal)) :
    StableHlo.after hostOps0_1 V (Proc.devRef .tc main_v3) = V (Proc.devRef .tc main_v3) := by
  simp only [hostOps0_1]
  eval_ops <;> rfl
theorem second_keep_v5 (V : Valuation τ sig (Elt Ideal)) :
    StableHlo.after hostOps0_1 V (Proc.devRef .tc main_v5) = V (Proc.devRef .tc main_v5) := by
  simp only [hostOps0_1]
  eval_ops <;> rfl
theorem second_keep_v6 (V : Valuation τ sig (Elt Ideal)) :
    StableHlo.after hostOps0_1 V (Proc.devRef .tc main_v6) = V (Proc.devRef .tc main_v6) := by
  simp only [hostOps0_1]
  eval_ops <;> rfl
theorem second_keep_arg0 (V : Valuation τ sig (Elt Ideal)) :
    StableHlo.after hostOps0_1 V (Proc.devRef .tc main_arg0) = V (Proc.devRef .tc main_arg0) := by
  simp only [hostOps0_1]
  eval_ops <;> rfl
theorem second_keep_arg2 (V : Valuation τ sig (Elt Ideal)) :
    StableHlo.after hostOps0_1 V (Proc.devRef .tc main_arg2) = V (Proc.devRef .tc main_arg2) := by
  simp only [hostOps0_1]
  eval_ops <;> rfl
theorem second_keep_arg3 (V : Valuation τ sig (Elt Ideal)) :
    StableHlo.after hostOps0_1 V (Proc.devRef .tc main_arg3) = V (Proc.devRef .tc main_arg3) := by
  simp only [hostOps0_1]
  eval_ops <;> rfl
theorem second_keep_arg4 (V : Valuation τ sig (Elt Ideal)) :
    StableHlo.after hostOps0_1 V (Proc.devRef .tc main_arg4) = V (Proc.devRef .tc main_arg4) := by
  simp only [hostOps0_1]
  eval_ops <;> rfl
theorem second_keep_arg5 (V : Valuation τ sig (Elt Ideal)) :
    StableHlo.after hostOps0_1 V (Proc.devRef .tc main_arg5) = V (Proc.devRef .tc main_arg5) := by
  simp only [hostOps0_1]
  eval_ops <;> rfl

/-! ## The third stretch: the edge weights -/

/-- The edge weights from the coefficients. -/
theorem third_weight (V : Valuation τ sig (Elt Ideal)) :
    StableHlo.after hostOps0_2 V (Proc.devRef .tc main_v31) = edgeWeight (V (Proc.devRef .tc main_v16)) (V (Proc.devRef .tc main_v5)) (V (Proc.devRef .tc main_v6)) := by
  simp only [hostOps0_2]
  eval_ops <;> rfl
theorem third_keep_v1 (V : Valuation τ sig (Elt Ideal)) :
    StableHlo.after hostOps0_2 V (Proc.devRef .tc main_v1) = V (Proc.devRef .tc main_v1) := by
  simp only [hostOps0_2]
  eval_ops <;> rfl
theorem third_keep_v3 (V : Valuation τ sig (Elt Ideal)) :
    StableHlo.after hostOps0_2 V (Proc.devRef .tc main_v3) = V (Proc.devRef .tc main_v3) := by
  simp only [hostOps0_2]
  eval_ops <;> rfl
theorem third_keep_v5 (V : Valuation τ sig (Elt Ideal)) :
    StableHlo.after hostOps0_2 V (Proc.devRef .tc main_v5) = V (Proc.devRef .tc main_v5) := by
  simp only [hostOps0_2]
  eval_ops <;> rfl
theorem third_keep_v6 (V : Valuation τ sig (Elt Ideal)) :
    StableHlo.after hostOps0_2 V (Proc.devRef .tc main_v6) = V (Proc.devRef .tc main_v6) := by
  simp only [hostOps0_2]
  eval_ops <;> rfl
theorem third_keep_arg0 (V : Valuation τ sig (Elt Ideal)) :
    StableHlo.after hostOps0_2 V (Proc.devRef .tc main_arg0) = V (Proc.devRef .tc main_arg0) := by
  simp only [hostOps0_2]
  eval_ops <;> rfl
theorem third_keep_arg2 (V : Valuation τ sig (Elt Ideal)) :
    StableHlo.after hostOps0_2 V (Proc.devRef .tc main_arg2) = V (Proc.devRef .tc main_arg2) := by
  simp only [hostOps0_2]
  eval_ops <;> rfl
theorem third_keep_arg3 (V : Valuation τ sig (Elt Ideal)) :
    StableHlo.after hostOps0_2 V (Proc.devRef .tc main_arg3) = V (Proc.devRef .tc main_arg3) := by
  simp only [hostOps0_2]
  eval_ops <;> rfl
theorem third_keep_arg4 (V : Valuation τ sig (Elt Ideal)) :
    StableHlo.after hostOps0_2 V (Proc.devRef .tc main_arg4) = V (Proc.devRef .tc main_arg4) := by
  simp only [hostOps0_2]
  eval_ops <;> rfl
theorem third_keep_arg5 (V : Valuation τ sig (Elt Ideal)) :
    StableHlo.after hostOps0_2 V (Proc.devRef .tc main_arg5) = V (Proc.devRef .tc main_arg5) := by
  simp only [hostOps0_2]
  eval_ops <;> rfl

/-! ## The fourth stretch: the weighted aggregation and the first bias as a row -/

/-- The weighted aggregation of the first product. -/
theorem fourth_aggregate (V : Valuation τ sig (Elt Ideal)) :
    StableHlo.after hostOps1 V (Proc.devRef .tc main_v45) = aggregate1 (V (Proc.devRef .tc main_v32)) (V (Proc.devRef .tc main_v31)) (V (Proc.devRef .tc main_v5)) (V (Proc.devRef .tc main_v6)) := by
  simp only [hostOps1]
  eval_ops <;> rfl
/-- The first bias as a one-row matrix. -/
theorem fourth_biasRow (V : Valuation τ sig (Elt Ideal)) :
    StableHlo.after hostOps1 V (Proc.devRef .tc main_v46) = shapeCast S1x128 (V (Proc.devRef .tc main_arg3)) shapeCasts_S128_S1x128 := by
  simp only [hostOps1]
  eval_ops <;> rfl
theorem fourth_keep_v1 (V : Valuation τ sig (Elt Ideal)) :
    StableHlo.after hostOps1 V (Proc.devRef .tc main_v1) = V (Proc.devRef .tc main_v1) := by
  simp only [hostOps1]
  eval_ops <;> rfl
theorem fourth_keep_v3 (V : Valuation τ sig (Elt Ideal)) :
    StableHlo.after hostOps1 V (Proc.devRef .tc main_v3) = V (Proc.devRef .tc main_v3) := by
  simp only [hostOps1]
  eval_ops <;> rfl
theorem fourth_keep_arg4 (V : Valuation τ sig (Elt Ideal)) :
    StableHlo.after hostOps1 V (Proc.devRef .tc main_arg4) = V (Proc.devRef .tc main_arg4) := by
  simp only [hostOps1]
  eval_ops <;> rfl
theorem fourth_keep_arg5 (V : Valuation τ sig (Elt Ideal)) :
    StableHlo.after hostOps1 V (Proc.devRef .tc main_arg5) = V (Proc.devRef .tc main_arg5) := by
  simp only [hostOps1]
  eval_ops <;> rfl

/-! ## The fifth stretch: the plain aggregation and the second bias as a row -/

/-- The plain aggregation of the second layer. -/
theorem fifth_aggregate (V : Valuation τ sig (Elt Ideal)) :
    StableHlo.after hostOps2 V (Proc.devRef .tc main_v57) = aggregate2 (V (Proc.devRef .tc main_v47)) (V (Proc.devRef .tc main_v1)) (V (Proc.devRef .tc main_v3)) := by
  simp only [hostOps2]
  eval_ops <;> rfl
/-- The second bias as a one-row matrix. -/
theorem fifth_biasRow (V : Valuation τ sig (Elt Ideal)) :
    StableHlo.after hostOps2 V (Proc.devRef .tc main_v58) = shapeCast S1x64 (V (Proc.devRef .tc main_arg5)) shapeCasts_S64_S1x64 := by
  simp only [hostOps2]
  eval_ops <;> rfl

end Cert.KernelIdeal.Whole

end
-- ==== Proof.KernelFold.lean ====
/-
  The idealized kernel program's result as the network of its arguments.

  A pipelined region replaces the contents of its arrays and keeps every other buffer; a host operation does the same
  with the one buffer it writes. Each of the three regions leaves its input arrays as it found them and its output
  array at one function of them (the product; the rectified biased layer times the weights; the bias row added to
  every row), so each region is the host operation that writes that function of its inputs to its output buffer.
  The program's buffer contents at its last boundary are then one fold of host operations from the launch memory, and
  read at the result buffer that fold is the network, with the coefficient spelt as a reciprocal square root and the
  two bias vectors recast as one-row matrices.
-/
import proofs.«159396_j23673859735705_2_alg».proof.Proof.Gen.KernelIdeal.Frame
import proofs.«159396_j23673859735705_2_alg».proof.Proof.Region0
import proofs.«159396_j23673859735705_2_alg».proof.Proof.Region1
import proofs.«159396_j23673859735705_2_alg».proof.Proof.Region2
import proofs.«159396_j23673859735705_2_alg».proof.Proof.LibRegionOp
import proofs.«159396_j23673859735705_2_alg».proof.Proof.Spec
import proofs.«159396_j23673859735705_2_alg».proof.Proof.KernelStages

set_option maxRecDepth 16384

noncomputable section

namespace Cert.KernelIdeal.Whole

open Cert.KernelIdeal Cert.KernelIdeal.Gen Cert.Dense Cert.Gcn Cert.Fused Cert.GcnNet
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region as a host operation: the product of the features and the first weights, written to its output. -/
abbrev regionOp0 : HloOp τ sig (Elt Ideal) :=
  StableHlo.binary main_arg0 main_arg2 main_v32
    ((fun a b => mm (M := 100000) (K := 128) (N := 128) a b) :
      (⟨S100000x128, .f32⟩ : BufTy).Contents (Elt Ideal) → (⟨S128x128, .f32⟩ : BufTy).Contents (Elt Ideal) → (⟨S100000x128, .f32⟩ : BufTy).Contents (Elt Ideal))

/-- The second region as a host operation: the rectified biased aggregate times the second weights. -/
abbrev regionOp1 : HloOp τ sig (Elt Ideal) :=
  StableHlo.ternary main_v45 main_v46 main_arg4 main_v47
    ((fun a b w => actMm (M := 100000) (K := 128) (N := 64) a b w) :
      (⟨S100000x128, .f32⟩ : BufTy).Contents (Elt Ideal) → (⟨S1x128, .f32⟩ : BufTy).Contents (Elt Ideal) → (⟨S128x64, .f32⟩ : BufTy).Contents (Elt Ideal) → (⟨S100000x64, .f32⟩ : BufTy).Contents (Elt Ideal))

/-- The third region as a host operation: the bias row added to every row. -/
abbrev regionOp2 : HloOp τ sig (Elt Ideal) :=
  StableHlo.binary main_v57 main_v58 main_v59
    ((fun y b => addRow (M := 100000) (N := 64) y b) :
      (⟨S100000x64, .f32⟩ : BufTy).Contents (Elt Ideal) → (⟨S1x64, .f32⟩ : BufTy).Contents (Elt Ideal) → (⟨S100000x64, .f32⟩ : BufTy).Contents (Elt Ideal))

/-- The first region's exit contents are its operation applied to its entry contents. -/
theorem exit0 (c : Dev nD) : W4 (F := Ideal) m ρ c = regionOp0.result (W3 m ρ c) := by
  unfold W4
  refine Cert.RegionOp.withArrays_eq_result spec0 launch0.win.arr_inj c (W3 m ρ c) _ regionOp0 ?_ ?_
  · intro w
    match w with
    | ⟨0, _⟩ => exact (region0_in0 (V3 m ρ) c).trans (Cert.RegionOp.result_keep regionOp0 (W3 m ρ c) main_v32 main_arg0 rfl (by decide)).symm
    | ⟨1, _⟩ => exact (region0_in1 (V3 m ρ) c).trans (Cert.RegionOp.result_keep regionOp0 (W3 m ρ c) main_v32 main_arg2 rfl (by decide)).symm
    | ⟨2, _⟩ => exact (region0_out (V3 m ρ) c).trans (StableHlo.binary_result main_arg0 main_arg2 main_v32 _ _ _ _ (W3 m ρ c)).symm
  · intro b hb
    rw [show regionOp0.writes = {Proc.devRef .tc main_v32} from rfl, Finset.mem_singleton] at hb
    exact ⟨2, hb.symm⟩

/-- The second region's exit contents are its operation applied to its entry contents. -/
theorem exit1 (c : Dev nD) : W6 (F := Ideal) m ρ c = regionOp1.result (W5 m ρ c) := by
  unfold W6
  refine Cert.RegionOp.withArrays_eq_result spec1 launch1.win.arr_inj c (W5 m ρ c) _ regionOp1 ?_ ?_
  · intro w
    match w with
    | ⟨0, _⟩ => exact (region1_in0 (V5 m ρ) c).trans (Cert.RegionOp.result_keep regionOp1 (W5 m ρ c) main_v47 main_v45 rfl (by decide)).symm
    | ⟨1, _⟩ => exact (region1_in1 (V5 m ρ) c).trans (Cert.RegionOp.result_keep regionOp1 (W5 m ρ c) main_v47 main_v46 rfl (by decide)).symm
    | ⟨2, _⟩ => exact (region1_in2 (V5 m ρ) c).trans (Cert.RegionOp.result_keep regionOp1 (W5 m ρ c) main_v47 main_arg4 rfl (by decide)).symm
    | ⟨3, _⟩ => exact (region1_out (V5 m ρ) c).trans (StableHlo.ternary_result main_v45 main_v46 main_arg4 main_v47 _ _ _ _ _ (W5 m ρ c)).symm
  · intro b hb
    rw [show regionOp1.writes = {Proc.devRef .tc main_v47} from rfl, Finset.mem_singleton] at hb
    exact ⟨3, hb.symm⟩

/-- The third region's exit contents are its operation applied to its entry contents. -/
theorem exit2 (c : Dev nD) : W8 (F := Ideal) m ρ c = regionOp2.result (W7 m ρ c) := by
  unfold W8
  refine Cert.RegionOp.withArrays_eq_result spec2 launch2.win.arr_inj c (W7 m ρ c) _ regionOp2 ?_ ?_
  · intro w
    match w with
    | ⟨0, _⟩ => exact (region2_in0 (V7 m ρ) c).trans (Cert.RegionOp.result_keep regionOp2 (W7 m ρ c) main_v59 main_v57 rfl (by decide)).symm
    | ⟨1, _⟩ => exact (region2_in1 (V7 m ρ) c).trans (Cert.RegionOp.result_keep regionOp2 (W7 m ρ c) main_v59 main_v58 rfl (by decide)).symm
    | ⟨2, _⟩ => exact (region2_out (V7 m ρ) c).trans (StableHlo.binary_result main_v57 main_v58 main_v59 _ _ _ _ (W7 m ρ c)).symm
  · intro b hb
    rw [show regionOp2.writes = {Proc.devRef .tc main_v59} from rfl, Finset.mem_singleton] at hb
    exact ⟨2, hb.symm⟩

/-- The last boundary's contents as one fold of host operations from the launch memory. -/
theorem last_boundary (c : Dev nD) :
    W8 (F := Ideal) m ρ c
      = regionOp2.result (StableHlo.after hostOps2 (regionOp1.result (StableHlo.after hostOps1 (regionOp0.result
          (StableHlo.after hostOps0_2 (StableHlo.after hostOps0_1 (StableHlo.after hostOps0 (W0 m ρ c)))))))) := by
  rw [exit2]
  show regionOp2.result (StableHlo.after hostOps2 (W6 m ρ c)) = _
  rw [exit1]
  show regionOp2.result (StableHlo.after hostOps2 (regionOp1.result (StableHlo.after hostOps1 (W4 m ρ c)))) = _
  rw [exit0]

/-- What each region's operation leaves: its function of its inputs at its output, every other buffer as it was. -/
theorem region0_at (V : Valuation τ sig (Elt Ideal)) :
    regionOp0.result V (Proc.devRef .tc main_v32)
      = mm (M := 100000) (K := 128) (N := 128) (V (Proc.devRef .tc main_arg0)) (V (Proc.devRef .tc main_arg2)) :=
  StableHlo.binary_result main_arg0 main_arg2 main_v32 _ _ _ _ V
theorem region0_keep (V : Valuation τ sig (Elt Ideal)) (r : Ref sig .tc) (h : r ≠ main_v32) :
    regionOp0.result V (Proc.devRef .tc r) = V (Proc.devRef .tc r) := Cert.RegionOp.result_keep regionOp0 V main_v32 r rfl h
theorem region1_at (V : Valuation τ sig (Elt Ideal)) :
    regionOp1.result V (Proc.devRef .tc main_v47)
      = actMm (M := 100000) (K := 128) (N := 64) (V (Proc.devRef .tc main_v45)) (V (Proc.devRef .tc main_v46)) (V (Proc.devRef .tc main_arg4)) :=
  StableHlo.ternary_result main_v45 main_v46 main_arg4 main_v47 _ _ _ _ _ V
theorem region1_keep (V : Valuation τ sig (Elt Ideal)) (r : Ref sig .tc) (h : r ≠ main_v47) :
    regionOp1.result V (Proc.devRef .tc r) = V (Proc.devRef .tc r) := Cert.RegionOp.result_keep regionOp1 V main_v47 r rfl h
theorem region2_at (V : Valuation τ sig (Elt Ideal)) :
    regionOp2.result V (Proc.devRef .tc main_v59)
      = addRow (M := 100000) (N := 64) (V (Proc.devRef .tc main_v57)) (V (Proc.devRef .tc main_v58)) :=
  StableHlo.binary_result main_v57 main_v58 main_v59 _ _ _ _ V

/-- The result buffer ends holding the network of the arguments: the last boundary's fold read back stretch by stretch
    and region by region. -/
theorem result_value (c : Dev nD) :
    W8 (F := Ideal) m ρ c (Proc.devRef .tc main_v59)
      = network (coeffRsqrt (degree (withLoops (dstOf (m ((c.tc : Thread nD τ).loc main_arg1))))))
          (mm (M := 100000) (K := 128) (N := 128) (m ((c.tc : Thread nD τ).loc main_arg0)) (m ((c.tc : Thread nD τ).loc main_arg2)))
          (fun a => actMm (M := 100000) (K := 128) (N := 64) a
            (shapeCast S1x128 (m ((c.tc : Thread nD τ).loc main_arg3)) shapeCasts_S128_S1x128) (m ((c.tc : Thread nD τ).loc main_arg4)))
          (fun y => addRow (M := 100000) (N := 64) y (shapeCast S1x64 (m ((c.tc : Thread nD τ).loc main_arg5)) shapeCasts_S64_S1x64))
          (m ((c.tc : Thread nD τ).loc main_arg1)) := by
  rw [last_boundary]
  rw [region2_at, fifth_aggregate, fifth_biasRow]
  rw [region1_at, region1_keep _ main_v1 (by decide), region1_keep _ main_v3 (by decide), region1_keep _ main_arg5 (by decide)]
  rw [fourth_aggregate, fourth_biasRow, fourth_keep_v1, fourth_keep_v3, fourth_keep_arg4, fourth_keep_arg5]
  rw [region0_at, region0_keep _ main_v31 (by decide), region0_keep _ main_v5 (by decide), region0_keep _ main_v6 (by decide), region0_keep _ main_arg3 (by decide), region0_keep _ main_arg4 (by decide), region0_keep _ main_v1 (by decide), region0_keep _ main_v3 (by decide), region0_keep _ main_arg5 (by decide)]
  rw [third_weight, third_keep_v1, third_keep_v3, third_keep_v5, third_keep_v6, third_keep_arg0, third_keep_arg2, third_keep_arg3,
    third_keep_arg4, third_keep_arg5]
  rw [second_coeff, second_keep_v1, second_keep_v3, second_keep_v5, second_keep_v6, second_keep_arg0, second_keep_arg2,
    second_keep_arg3, second_keep_arg4, second_keep_arg5]
  rw [first_positive, first_rsqrt, first_zero, first_srcLoops, first_dstLoops, first_src, first_dst, first_keep_arg0,
    first_keep_arg2, first_keep_arg3, first_keep_arg4, first_keep_arg5]
  rfl

end Cert.KernelIdeal.Whole

end
-- ==== Proof.LibDegreeCoeff.lean ====
/-
  Degrees as counts, and the coefficient deg^(-1/2) in two spellings, generic in the sizes.

  Scattering ones into zeros along an index column adds, at entry p, one for every index entry that names p: the
  number of such entries, a natural number. A normalised graph convolution takes of that count n the coefficient
  n^(-1/2) where n > 0 and some fixed value elsewhere, and programs spell it in two ways: as the reciprocal square
  root of max(n, 1), or as the power n^(-1/2). On a natural number the two selections agree: at n = 0 the comparison
  fails and both take the other branch; at n ≥ 1, max(n, 1) = n and the reciprocal of the square root of a positive
  real is its power -1/2. Also here: the f32 word of -1/2, a selection on the false bit, the host's accumulating
  scatter on the extended reals as the exact sum, and a scalar broadcast to any shape read at an entry.
-/
import proofs.«159396_j23673859735705_2_alg».proof.Proof.LibCount
import proofs.«159396_j23673859735705_2_alg».proof.Proof.LibLiterals
import Idealize.ShloMosaic.Lib.ValueIdx
import Idealize.ShloMosaic.Lib.Pipeline.Value
import Idealize.ShloMosaic.PureOps.Ideal.Laws

noncomputable section

open scoped BigOperators

namespace Cert.DegreeCoeff

open Idealize.ShloMosaic Idealize.ShloMosaic.ValueIdx Cert.Indexed Cert.Count

/-- The f32 word 0xBF000000 (sign 1, exponent 126, fraction 0) denotes -1/2. -/
theorem ofBits_neg_half : Ideal.ofBits .f32 0xBF000000#32 = (((-1 / 2 : ℝ)) : EReal) := by
  simp [Ideal.ofBits, Ideal.ieee, -EReal.coe_mul]; norm_num

/-- A selection on the false bit takes its second branch, whatever the first branch is. -/
theorem select_false {α : Type} (a z : α) : Scalar.select (0#1) a z = z := rfl

/-- On a natural number the two spellings of the coefficient agree: both are the other branch at 0, and n^(-1/2) at n ≥ 1. -/
theorem rsqrt_clip_eq_pow (n : ℕ) (z : EReal) :
    Scalar.select (Ideal.cmp .ogt ((n : ℝ) : EReal) 0) (Ideal.rsqrt (max ((n : ℝ) : EReal) 1)) z
      = Scalar.select (Ideal.cmp .ogt ((n : ℝ) : EReal) 0) (Ideal.pow ((n : ℝ) : EReal) (((-1 / 2 : ℝ)) : EReal)) z := by
  rcases Nat.eq_zero_or_pos n with rfl | hn
  · have hc : Ideal.cmp .ogt (((0 : ℕ) : ℝ) : EReal) 0 = 0#1 := by simp [Ideal.cmp]
    rw [hc, select_false, select_false]
  · have h1 : (1 : ℝ) ≤ (n : ℝ) := by exact_mod_cast hn
    have hpos : (0 : ℝ) < (n : ℝ) := lt_of_lt_of_le one_pos h1
    have hmax : max ((n : ℝ) : EReal) 1 = ((n : ℝ) : EReal) :=
      max_eq_left (by rw [← EReal.coe_one]; exact EReal.coe_le_coe_iff.mpr h1)
    have hval : Ideal.rsqrt ((n : ℝ) : EReal) = Ideal.pow ((n : ℝ) : EReal) (((-1 / 2 : ℝ)) : EReal) := by
      rw [Ideal.rsqrt_coe, Ideal.pow_coe_coe, if_neg (not_lt.mpr hpos.le), if_neg (ne_of_gt hpos)]
      refine congrArg _ ?_
      show (Real.sqrt (n : ℝ))⁻¹ = (n : ℝ) ^ ((-1 / 2 : ℝ))
      rw [show ((-1 / 2 : ℝ)) = -(1 / 2) by norm_num, Real.rpow_neg hpos.le, Real.sqrt_eq_rpow]
    rw [hmax, hval]

/-- The same with the three literals as the f32 words of 0, 1 and -1/2, on any entry that is a count. -/
theorem rsqrt_clip_eq_pow_words (d : EReal) (h : ∃ n : ℕ, d = ((n : ℝ) : EReal)) :
    Scalar.select (Ideal.cmp .ogt d (Ideal.ofBits .f32 0x00000000#32))
        (Ideal.rsqrt (max d (Ideal.ofBits .f32 0x3F800000#32))) (Ideal.ofBits .f32 0x00000000#32)
      = Scalar.select (Ideal.cmp .ogt d (Ideal.ofBits .f32 0x00000000#32))
        (Ideal.pow d (Ideal.ofBits .f32 0xBF000000#32)) (Ideal.ofBits .f32 0x00000000#32) := by
  obtain ⟨n, rfl⟩ := h
  rw [Cert.LibLiterals.ofBits_f32_zero, Cert.LibLiterals.ofBits_f32_one, ofBits_neg_half]
  exact rsqrt_clip_eq_pow n 0

/-- On the extended reals the host's accumulating scatter is the exact sum. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- A scalar broadcast to any shape, read at an entry. -/
theorem splat_apply {α : Type} (t : Shape) (h : (⟨0, ![]⟩ : Shape).BroadcastsInDim t ![]) (x : (⟨0, ![]⟩ : Shape).Idx → α)
    (j : t.Idx) : broadcastInDim t ![] h x j = x ix0 :=
  broadcastInDim_apply ![] h x j ix0 (fun ax => ax.elim0)

/-- Ones accumulated into zeros along an index column: every entry is a natural number, the number of index entries
    that name it. -/
theorem count_nat {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (hx : ∀ i, x i = 0) (hu : ∀ j, upd j = 1) (i : Fin N) :
    ∃ n : ℕ, Ideal.hostScatterAdd (flatScatter N M wf) x idx upd (ix1 i) = ((n : ℝ) : EReal) := by
  apply Exists.intro
  rw [flatScatterAdd_at, hx, zero_add]
  exact (Finset.sum_congr rfl fun r _ => hu _).trans (sum_one_real _)

end Cert.DegreeCoeff

end
-- ==== Proof.Degree.lean ====
/-
  A degree is a count, and on the degrees the two spellings of the coefficient are one array.

  The degree array is a scatter-add of ones into zeros along the destinations' index column, so every entry is a
  natural number; on a natural number the reciprocal square root of max(n, 1) and the power n^(-1/2), each selected
  where n > 0, agree.
-/
import proofs.«159396_j23673859735705_2_alg».proof.Proof.Spec
import proofs.«159396_j23673859735705_2_alg».proof.Proof.LibDegreeCoeff

noncomputable section

open scoped BigOperators

namespace Cert.GcnNet

open Cert.KernelIdeal Cert.KernelIdeal.Gen Cert.Indexed Cert.Count Cert.DegreeCoeff
open Idealize.ShloMosaic Idealize.ShloMosaic.ValueIdx

/-! ## The coefficient arrays entry by entry, over any degree array -/

/-- The reciprocal-square-root spelling at an entry. -/
theorem coeffRsqrt_apply (deg : FVec Ideal S100000 .f32) (i : S100000.Idx) :
    coeffRsqrt deg i = Scalar.select (Ideal.cmp .ogt (deg i) (Ideal.ofBits .f32 0x00000000#32))
      (Ideal.rsqrt (max (deg i) (Ideal.ofBits .f32 0x3F800000#32))) (Ideal.ofBits .f32 0x00000000#32) := rfl

/-- The power spelling at an entry. -/
theorem coeffPow_apply (deg : FVec Ideal S100000 .f32) (i : S100000.Idx) :
    coeffPow deg i = Scalar.select (Ideal.cmp .ogt (deg i) (Ideal.ofBits .f32 0x00000000#32))
      (Ideal.pow (deg i) (Ideal.ofBits .f32 0xBF000000#32)) (Ideal.ofBits .f32 0x00000000#32) := rfl

/-- On an array of counts the two spellings are one array. -/
theorem coeff_eq_of_counts (deg : FVec Ideal S100000 .f32) (h : ∀ i, ∃ n : ℕ, deg i = ((n : ℝ) : EReal)) :
    coeffRsqrt deg = coeffPow deg := by
  funext i
  rw [coeffRsqrt_apply, coeffPow_apply]
  exact rsqrt_clip_eq_pow_words (deg i) (h i)

/-! ## A degree is a count -/

/-- The degree scatter's dimension numbers are those of an accumulation into a flat array by an index column. -/
theorem scatter_flat :
    scatter_S100000_S1700000x1_S1700000_n_0_0_1 = flatScatter 100000 1700000 scatter_S100000_S1700000x1_S1700000_n_0_0_1_wf := rfl

/-- Every degree is a natural number: the number of index entries that name the node. -/
theorem degree_count (d1 : IVec S1700000 32) (i : S100000.Idx) : ∃ n : ℕ, degree d1 i = ((n : ℝ) : EReal) := by
  obtain ⟨v, rfl⟩ : ∃ v : Fin 100000, i = ix1 v := ⟨i 0, eq_ix1 i⟩
  unfold degree
  rw [scatterAdd_ideal, scatter_flat]
  exact count_nat _ _ _ _ (fun i => (splat_apply _ _ _ _).trans Cert.LibLiterals.ofBits_f32_zero)
    (fun j => (splat_apply _ _ _ _).trans Cert.LibLiterals.ofBits_f32_one) v

/-- The two coefficient arrays of the degrees are one array. -/
theorem coeff_eq (d1 : IVec S1700000 32) : coeffRsqrt (degree d1) = coeffPow (degree d1) :=
  coeff_eq_of_counts (degree d1) (degree_count d1)

end Cert.GcnNet

end
-- ==== Proof.Bridge.lean ====
/-
  The kernel program's spelling of the network is the network.

  The kernel program takes the coefficient as a reciprocal square root of the clipped degree and hands the two bias
  vectors to its regions recast as one-row matrices. On degrees the two spellings of the coefficient are one array,
  and a vector recast as a one-row matrix is its one-row layout, so the kernel program's network is the network.
-/
import proofs.«159396_j23673859735705_2_alg».proof.Proof.Spec
import proofs.«159396_j23673859735705_2_alg».proof.Proof.Degree

noncomputable section

namespace Cert.GcnNet

open Cert.KernelIdeal Cert.KernelIdeal.Gen Cert.Dense Cert.Gcn Cert.Fused
open Idealize.ShloMosaic Idealize.ShloMosaic.ValueIdx

theorem kernel_network (x : FVec Ideal S100000x128 .f32) (e : IVec S2x1600000 32) (w1 : FVec Ideal S128x128 .f32)
    (b1 : FVec Ideal S128 .f32) (w2 : FVec Ideal S128x64 .f32) (b2 : FVec Ideal S64 .f32) :
    network (coeffRsqrt (degree (withLoops (dstOf e)))) (mm (M := 100000) (K := 128) (N := 128) x w1)
        (fun a => actMm (M := 100000) (K := 128) (N := 64) a (shapeCast S1x128 b1 shapeCasts_S128_S1x128) w2)
        (fun y => addRow (M := 100000) (N := 64) y (shapeCast S1x64 b2 shapeCasts_S64_S1x64)) e
      = gcn x e w1 b1 w2 b2 := by
  unfold gcn
  rw [coeff_eq, shapeCast_row (N := 128) b1 shapeCasts_S128_S1x128, shapeCast_row (N := 64) b2 shapeCasts_S64_S1x64]

end Cert.GcnNet

end
-- ==== Proof.RefValue.lean ====
/-
  The reference program's result is the network of its arguments.

  The reference's composed term is the network with the coefficient as the power -1/2 of the degree and the dense
  steps in the host's spelling: general dot products, each bias broadcast first to one row and then over the rows,
  the rectifier as a maximum with a broadcast zero. On the extended reals a general dot product with one contracted
  axis is the finite sum that defines the matrix product, so these are the network's own dense steps.
-/
import proofs.«159396_j23673859735705_2_alg».proof.Proof.RefRunPatched
import proofs.«159396_j23673859735705_2_alg».proof.Proof.Spec

set_option maxRecDepth 16384

noncomputable section

namespace Cert.ReferenceIdeal.RefValue

open Cert.ReferenceIdeal Cert.ReferenceIdeal.Gen Cert.Dense Cert.Gcn Cert.Fused Cert.GcnNet
open Idealize.ShloMosaic Idealize.ShloMosaic.TcCoe Idealize.SL.Sem

/-- The network over the host's spelling of its dense parts. -/
def hostNet (x : FVec Ideal S100000x128 .f32) (e : IVec S2x1600000 32) (w1 : FVec Ideal S128x128 .f32) (b1 : FVec Ideal S128 .f32)
    (w2 : FVec Ideal S128x64 .f32) (b2 : FVec Ideal S64 .f32) : FVec Ideal S100000x64 .f32 :=
  network (coeffPow (degree (withLoops (dstOf e))))
    (Host.dotGeneral (F := Ideal) dot_S100000x128_S128x128_S100000x128_1_0_0_1_n_n none x w1)
    (fun a => Host.dotGeneral (F := Ideal) dot_S100000x128_S128x64_S100000x64_1_0_0_1_n_n none
      (maximumf (addf a (broadcastInDim S100000x128 ![0, 1] bcast_S1x128_S100000x128_0_1 (broadcastInDim S1x128 ![1] bcast_S128_S1x128_1 b1)))
        (broadcastInDim S100000x128 ![] bcast_S_S100000x128 (constant (F := Ideal) S_ .f32 0x00000000#32)))
      w2)
    (fun y => addf y (broadcastInDim S100000x64 ![0, 1] bcast_S1x64_S100000x64_0_1 (broadcastInDim S1x64 ![1] bcast_S64_S1x64_1 b2)))
    e

/-- The host's spelling of the dense parts is the network's own. -/
theorem hostNet_eq (x : FVec Ideal S100000x128 .f32) (e : IVec S2x1600000 32) (w1 : FVec Ideal S128x128 .f32) (b1 : FVec Ideal S128 .f32)
    (w2 : FVec Ideal S128x64 .f32) (b2 : FVec Ideal S64 .f32) : hostNet x e w1 b1 w2 b2 = gcn x e w1 b1 w2 b2 := by
  unfold hostNet gcn
  have h1 : Host.dotGeneral (F := Ideal) dot_S100000x128_S128x128_S100000x128_1_0_0_1_n_n none x w1
      = mm (M := 100000) (K := 128) (N := 128) x w1 :=
    dotGeneral_plain (M := 100000) (K := 128) (N := 128) x w1
  have h2 : (fun a : FVec Ideal S100000x128 .f32 => Host.dotGeneral (F := Ideal) dot_S100000x128_S128x64_S100000x64_1_0_0_1_n_n none
        (maximumf (addf a (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32)))
        w2)
      = fun a => actMm (M := 100000) (K := 128) (N := 64) a (rowOf b1) w2 :=
    funext fun a => host_actMm (M := 100000) (K := 128) (N := 64) a b1 w2 bcast_S128_S1x128_1 bcast_S1x128_S100000x128_0_1 bcast_S_S100000x128
  have h3 : (fun y : FVec Ideal S100000x64 .f32 => addf y (broadcastInDim S100000x64 ![0, 1] bcast_S1x64_S100000x64_0_1
        (broadcastInDim S1x64 ![1] bcast_S64_S1x64_1 b2)))
      = fun y => addRow (M := 100000) (N := 64) y (rowOf b2) :=
    funext fun y => host_addRow (M := 100000) (N := 64) y b2 bcast_S64_S1x64_1 bcast_S1x64_S100000x64_0_1
  rw [h1, h2, h3]

variable (m : (ℓ : Loc nD τ sig) → Buf (Elt Ideal) ℓ)

set_option maxHeartbeats 4000000 in
/-- The reference's term is the network over the host's spelling of its parts. -/
theorem result_unfolded (c : Dev nD) :
    Cert.ReferenceIdeal.ValueP.res_main_v62 (F := Ideal) m c
      = hostNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v62
  rfl

/-- The reference's result is the network of its arguments. -/
theorem result_eq (c : Dev nD) :
    Cert.ReferenceIdeal.ValueP.res_main_v62 (F := Ideal) m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (result_unfolded m c).trans (hostNet_eq _ _ _ _ _ _)

end Cert.ReferenceIdeal.RefValue

end
-- ==== Proof.lean ====
/- A two-layer graph convolution in three pipelined regions against its plain reference, on the extended reals.

   Both programs add a self-loop to every node, take every node's degree (the number of edges ending in it), the
   coefficient c(v) = deg(v)^(-1/2) where deg(v) > 0 and 0 elsewhere, the edge weights c(s)·c(d), and compute
   out = S₂(relu(S₁(X·W1) + b1)·W2) + b2 with S₁ the weighted and S₂ the unweighted sum of rows along the edges. The
   kernel program computes X·W1, relu(· + b1)·W2 and · + b2 in three pipelined regions, block of 5000 rows by block;
   the reference computes them on the whole arrays. Entry (r, q) of each of the three reads row r of its first operand
   only, so the blocks' results are the rows of the whole arrays' results (Region0, Region1, Region2), and each region
   is one host operation on the buffer contents (KernelFold); the gathers and scatter-adds between them are the same
   operations in both programs and are never opened. The one arithmetic difference is the coefficient: the kernel
   program takes the reciprocal square root of max(deg, 1), the reference the power deg^(-1/2), both only where
   deg > 0. A degree is a count, so where it is positive it is at least 1 and the two agree (Spec). Changes of float
   format are the identity on the extended reals, and a matrix product into a zero accumulator and a general dot
   product with one contracted axis are the same finite sum. No finiteness of the inputs is used. -/
import proofs.«159396_j23673859735705_2_alg».proof.Defs
import proofs.«159396_j23673859735705_2_alg».proof.Proof.Gen.Kernel
import proofs.«159396_j23673859735705_2_alg».proof.Proof.Gen.Kernel.Skeleton
import proofs.«159396_j23673859735705_2_alg».proof.Proof.Gen.Kernel.Launch
import proofs.«159396_j23673859735705_2_alg».proof.Proof.Gen.Kernel.Points
import proofs.«159396_j23673859735705_2_alg».proof.Proof.Gen.Kernel.Frame
import proofs.«159396_j23673859735705_2_alg».proof.Proof.Gen.KernelIdeal
import proofs.«159396_j23673859735705_2_alg».proof.Proof.Gen.KernelIdeal.Skeleton
import proofs.«159396_j23673859735705_2_alg».proof.Proof.Gen.KernelIdeal.Launch
import proofs.«159396_j23673859735705_2_alg».proof.Proof.Gen.KernelIdeal.Points
import proofs.«159396_j23673859735705_2_alg».proof.Proof.Gen.KernelIdeal.Frame
import proofs.«159396_j23673859735705_2_alg».proof.Proof.Gen.ReferenceIdeal
import proofs.«159396_j23673859735705_2_alg».proof.Proof.Gen.Pre_finite_inputs
import proofs.«159396_j23673859735705_2_alg».proof.Proof.KernelRun
import proofs.«159396_j23673859735705_2_alg».proof.Proof.KernelFold
import proofs.«159396_j23673859735705_2_alg».proof.Proof.Bridge
import proofs.«159396_j23673859735705_2_alg».proof.Proof.RefRunPatched
import proofs.«159396_j23673859735705_2_alg».proof.Proof.RefValue
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both idealized programs end with the network of the arguments in their
    result buffer. -/
theorem algebraic : Cert.algebraic_KernelIdeal_ReferenceIdeal := by
  intro m ρ m' ρ' _ hagree
  refine ⟨fun c => Cert.GcnNet.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨?_, ?_, ?_, ?_, ?_, ?_, ?_⟩)
      (Cert.KernelIdeal.Whole.run_buffers (F := Ideal) m ρ)
    · exact (h c Cert.KernelIdeal.main_v59 (by decide)).trans
        ((Cert.KernelIdeal.Whole.result_value m ρ c).trans (Cert.GcnNet.kernel_network _ _ _ _ _ _))
    · exact (h c Cert.KernelIdeal.main_arg0 (by decide)).trans (Cert.KernelIdeal.Gen.W8_main_arg0 m ρ c)
    · exact (h c Cert.KernelIdeal.main_arg1 (by decide)).trans (Cert.KernelIdeal.Gen.W8_main_arg1 m ρ c)
    · exact (h c Cert.KernelIdeal.main_arg2 (by decide)).trans (Cert.KernelIdeal.Gen.W8_main_arg2 m ρ c)
    · exact (h c Cert.KernelIdeal.main_arg3 (by decide)).trans (Cert.KernelIdeal.Gen.W8_main_arg3 m ρ c)
    · exact (h c Cert.KernelIdeal.main_arg4 (by decide)).trans (Cert.KernelIdeal.Gen.W8_main_arg4 m ρ c)
    · exact (h c Cert.KernelIdeal.main_arg5 (by decide)).trans (Cert.KernelIdeal.Gen.W8_main_arg5 m ρ c)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
